-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x512 : Shape := ⟨2, ![512, 512]⟩
abbrev S512 : Shape := ⟨1, ![512]⟩
abbrev S2x160000 : Shape := ⟨2, ![2, 160000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x512 .f32) (main_arg8 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S512 .f32) (main_arg5 : FVec F S512 .f32) (main_arg6 : FVec F S512x512 .f32) (main_arg7 : FVec F S512x512 .f32) (main_arg8 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_v33

def fn {F : FTy → Type} [FloatOps F] (main_arg0 : FVec F S50000x512 .f32) (main_arg1 : FVec F S512x512 .f32) (main_arg2 : FVec F S512x512 .f32) (main_arg3 : FVec F S512 .f32) (main_arg4 : FVec F S512 .f32) (main_arg5 : FVec F S512 .f32) (main_arg6 : FVec F S512x512 .f32) (main_arg7 : FVec F S512x512 .f32) (main_arg8 : FVec F S512 .f32) (main_arg9 : IVec S2x160000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_v13 main_v16
-- ==== Kernel.lean ====
abbrev S50000x512 : Shape := ⟨2, ![50000, 512]⟩
abbrev S512x512 : Shape := ⟨2, ![512, 512]⟩
abbrev S512 : Shape := ⟨1, ![512]⟩
abbrev S2x160000 : Shape := ⟨2, ![2, 160000]⟩
abbrev S1x160000 : Shape := ⟨2, ![1, 160000]⟩
abbrev S160000 : Shape := ⟨1, ![160000]⟩
abbrev S_ : Shape := ⟨0, ![]⟩
abbrev S50000 : Shape := ⟨1, ![50000]⟩
abbrev S160000x1 : Shape := ⟨2, ![160000, 1]⟩
abbrev S160000x512 : Shape := ⟨2, ![160000, 512]⟩
abbrev S1000x512 : Shape := ⟨2, ![1000, 512]⟩
abbrev S1x512 : Shape := ⟨2, ![1, 512]⟩
abbrev S1000 : Shape := ⟨1, ![1000]⟩
abbrev S1000x1 : Shape := ⟨2, ![1000, 1]⟩

abbrev nBuf : Space → Nat
  | .hbm => 85
  | .vmem => 20
  | .smem => 0
  | _ => 0

abbrev bufTy : (tb : Table) → Fin (tcTables nBuf tb) → BufTy
  | .hbm, ⟨0, _⟩ => ⟨S50000x512, .f32⟩
  | .hbm, ⟨1, _⟩ => ⟨S512x512, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512x512, .f32⟩
  | .hbm, ⟨7, _⟩ => ⟨S512x512, .f32⟩
  | .hbm, ⟨8, _⟩ => ⟨S512, .f32⟩
  | .hbm, ⟨9, _⟩ => ⟨S2x160000, .i32⟩
  | .hbm, ⟨10, _⟩ => ⟨S1x160000, .i32⟩
  | .hbm, ⟨11, _⟩ => ⟨S160000, .i32⟩
  | .hbm, ⟨12, _⟩ => ⟨S1x160000, .i32⟩
  | .hbm, ⟨13, _⟩ => ⟨S160000, .i32⟩
  | .hbm, ⟨14, _⟩ => ⟨S_, .f32⟩
  | .hbm, ⟨15, _⟩ => ⟨S160000, .f32⟩
  | .hbm, ⟨16, _⟩ => ⟨S_, .f32⟩
  | .hbm, ⟨17, _⟩ => ⟨S50000, .f32⟩
  | .hbm, ⟨18, _⟩ => ⟨S160000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S160000, .i32⟩
  | .hbm, ⟨33, _⟩ => ⟨S160000, .i1⟩
  | .hbm, ⟨34, _⟩ => ⟨S_, .i32⟩
  | .hbm, ⟨35, _⟩ => ⟨S160000, .i32⟩
  | .hbm, ⟨36, _⟩ => ⟨S160000, .i32⟩
  | .hbm, ⟨37, _⟩ => ⟨S160000, .i32⟩
  | .hbm, ⟨38, _⟩ => ⟨S160000x1, .i32⟩
  | .hbm, ⟨39, _⟩ => ⟨S160000, .f32⟩
  | .hbm, ⟨40, _⟩ => ⟨S160000, .f32⟩
  | .hbm, ⟨41, _⟩ => ⟨S_, .i32⟩
  | .hbm, ⟨42, _⟩ => ⟨S160000, .i32⟩
  | .hbm, ⟨43, _⟩ => ⟨S160000, .i1⟩
  | .hbm, ⟨44, _⟩ => ⟨S_, .i32⟩
  | .hbm, ⟨45, _⟩ => ⟨S160000, .i32⟩
  | .hbm, ⟨46, _⟩ => ⟨S160000, .i32⟩
  | .hbm, ⟨47, _⟩ => ⟨S160000, .i32⟩
  | .hbm, ⟨48, _⟩ => ⟨S160000x1, .i32⟩
  | .hbm, ⟨49, _⟩ => ⟨S160000, .f32⟩
  | .hbm, ⟨50, _⟩ => ⟨S160000, .f32⟩
  | .hbm, ⟨51, _⟩ => ⟨S_, .i32⟩
  | .hbm, ⟨52, _⟩ => ⟨S160000, .i32⟩
  | .hbm, ⟨53, _⟩ => ⟨S160000, .i1⟩
  | .hbm, ⟨54, _⟩ => ⟨S_, .i32⟩
  | .hbm, ⟨55, _⟩ => ⟨S160000, .i32⟩
  | .hbm, ⟨56, _⟩ => ⟨S160000, .i32⟩
  | .hbm, ⟨57, _⟩ => ⟨S160000, .i32⟩
  | .hbm, ⟨58, _⟩ => ⟨S160000x1, .i32⟩
  | .hbm, ⟨59, _⟩ => ⟨S160000x512, .f32⟩
  | .hbm, ⟨60, _⟩ => ⟨S160000x1, .f32⟩
  | .hbm, ⟨61, _⟩ => ⟨S160000x512, .f32⟩
  | .hbm, ⟨62, _⟩ => ⟨S160000x512, .f32⟩
  | .hbm, ⟨63, _⟩ => ⟨S_, .f32⟩
  | .hbm, ⟨64, _⟩ => ⟨S50000x512, .f32⟩
  | .hbm, ⟨65, _⟩ => ⟨S160000x1, .i32⟩
  | .hbm, ⟨66, _⟩ => ⟨S50000x512, .f32⟩
  | .hbm, ⟨67, _⟩ => ⟨S50000x512, .f32⟩
  | .hbm, ⟨68, _⟩ => ⟨S_, .i32⟩
  | .hbm, ⟨69, _⟩ => ⟨S160000, .i32⟩
  | .hbm, ⟨70, _⟩ => ⟨S160000, .i1⟩
  | .hbm, ⟨71, _⟩ => ⟨S_, .i32⟩
  | .hbm, ⟨72, _⟩ => ⟨S160000, .i32⟩
  | .hbm, ⟨73, _⟩ => ⟨S160000, .i32⟩
  | .hbm, ⟨74, _⟩ => ⟨S160000, .i32⟩
  | .hbm, ⟨75, _⟩ => ⟨S160000x1, .i32⟩
  | .hbm, ⟨76, _⟩ => ⟨S160000x512, .f32⟩
  | .hbm, ⟨77, _⟩ => ⟨S160000x1, .f32⟩
  | .hbm, ⟨78, _⟩ => ⟨S160000x512, .f32⟩
  | .hbm, ⟨79, _⟩ => ⟨S160000x512, .f32⟩
  | .hbm, ⟨80, _⟩ => ⟨S_, .f32⟩
  | .hbm, ⟨81, _⟩ => ⟨S50000x512, .f32⟩
  | .hbm, ⟨82, _⟩ => ⟨S160000x1, .i32⟩
  | .hbm, ⟨83, _⟩ => ⟨S50000x512, .f32⟩
  | .hbm, ⟨84, _⟩ => ⟨S50000x512, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x512, .f32⟩
  | .local _ .vmem, ⟨5, _⟩ => ⟨S512x512, .f32⟩
  | .local _ .vmem, ⟨6, _⟩ => ⟨S512, .f32⟩
  | .local _ .vmem, ⟨7, _⟩ => ⟨S512, .f32⟩
  | .local _ .vmem, ⟨8, _⟩ => ⟨S512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S1000x512, .f32⟩
  | .local _ .vmem, ⟨14, _⟩ => ⟨S1000x512, .f32⟩
  | .local _ .vmem, ⟨15, _⟩ => ⟨S512x512, .f32⟩
  | .local _ .vmem, ⟨16, _⟩ => ⟨S512x512, .f32⟩
  | .local _ .vmem, ⟨17, _⟩ => ⟨S512, .f32⟩
  | .local _ .vmem, ⟨18, _⟩ => ⟨S1000x512, .f32⟩
  | .local _ .vmem, ⟨19, _⟩ => ⟨S1000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_7 : Ref sig .tc := ⟨.hbm, 51, rfl⟩
abbrev main_v30 : Ref sig .tc := ⟨.hbm, 52, rfl⟩
abbrev main_v31 : Ref sig .tc := ⟨.hbm, 53, rfl⟩
abbrev main_c_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_10 : Ref sig .tc := ⟨.hbm, 68, rfl⟩
abbrev main_v44 : Ref sig .tc := ⟨.hbm, 69, rfl⟩
abbrev main_v45 : Ref sig .tc := ⟨.hbm, 70, rfl⟩
abbrev main_c_11 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S50000 : S_.BroadcastsInDim S50000 (![] : Fin 0 → Fin S50000.rank)
  bcast_S160000_S160000x1_0 : S160000.BroadcastsInDim S160000x1 (![0] : Fin 1 → Fin S160000x1.rank)
  bcast_S160000x1_S160000x512_0_1 : S160000x1.BroadcastsInDim S160000x512 (![0, 1] : Fin 2 → Fin S160000x512.rank)
  bcast_S_S50000x512 : S_.BroadcastsInDim S50000x512 (![] : Fin 0 → Fin S50000x512.rank)
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  shapeCasts_S512_S1x512 : S512.ShapeCasts S1x512
  broadcasts_S1x512_S1000x512 : S1x512.Broadcasts S1000x512
  reduces_S1000x512_S1000 : S1000x512.Reduces [1] S1000
  shapeCasts_S1000_S1000x1 : S1000.ShapeCasts S1000x1
  broadcasts_S1000x1_S1000x512 : S1000x1.Broadcasts S1000x512
  scatter_S50000_S160000x1_S160000_n_0_0_1_wf : ScatterDims.WF S50000 S160000x1 S160000 [] [0] [0] 1
  gather_S50000_S160000x1_S160000_n_0_n_n_0_1_1_wf : GatherDims.WF S50000 S160000x1 S160000 [] [0] [] [0] [] 1 ![1]
  gather_S50000x512_S160000x1_S160000x512_1_0_n_n_0_1_1512_wf : GatherDims.WF S50000x512 S160000x1 S160000x512 [1] [0] [] [0] [] 1 ![1, 512]
  scatter_S50000x512_S160000x1_S160000x512_1_0_0_1_wf : ScatterDims.WF S50000x512 S160000x1 S160000x512 [1] [0] [0] 1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S50000x512.size a
  hwx0_1 : ∀ i : grid0.Coords, EltTy.bits .f32 = 32 ∨ (Rect.block (s := S50000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x512.size a ≤ S50000x512.size a
  hwx0_7 : ∀ i : grid0.Coords, EltTy.bits .f32 = 32 ∨ (Rect.block (s := S50000x512) S1000x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .f32 = 32 ∨ (Rect.block (s := S50000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S50000x512.size a
  hwx1_1 : ∀ i : grid1.Coords, EltTy.bits .f32 = 32 ∨ (Rect.block (s := S50000x512) S1000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x512.size a ≤ S50000x512.size a
  hwx1_5 : ∀ i : grid1.Coords, EltTy.bits .f32 = 32 ∨ (Rect.block (s := S50000x512) S1000x512.size (cc1_transform_5 i) (hinb1_5 i)).WholeWords (EltTy.packing .f32)

variable [Facts₀]

def scatter_S50000_S160000x1_S160000_n_0_0_1 : ScatterDims S50000 S160000x1 S160000 where
  updateWindowDims := []
  insertedWindowDims := [0]
  scatterDimsToOperandDims := [0]
  indexVectorDim := 1
  wf := scatter_S50000_S160000x1_S160000_n_0_0_1_wf
def gather_S50000_S160000x1_S160000_n_0_n_n_0_1_1 : GatherDims S50000 S160000x1 S160000 where
  offsetDims := []
  collapsedSliceDims := [0]
  operandBatchingDims := []
  startIndicesBatchingDims := []
  startIndexMap := [0]
  indexVectorDim := 1
  sliceSizes := ![1]
  wf := gather_S50000_S160000x1_S160000_n_0_n_n_0_1_1_wf
def gather_S50000x512_S160000x1_S160000x512_1_0_n_n_0_1_1512 : GatherDims S50000x512 S160000x1 S160000x512 where
  offsetDims := [1]
  collapsedSliceDims := [0]
  operandBatchingDims := []
  startIndicesBatchingDims := []
  startIndexMap := [0]
  indexVectorDim := 1
  sliceSizes := ![1, 512]
  wf := gather_S50000x512_S160000x1_S160000x512_1_0_n_n_0_1_1512_wf
def scatter_S50000x512_S160000x1_S160000x512_1_0_0_1 : ScatterDims S50000x512 S160000x1 S160000x512 where
  updateWindowDims := [1]
  insertedWindowDims := [0]
  scatterDimsToOperandDims := [0]
  indexVectorDim := 1
  wf := scatter_S50000x512_S160000x1_S160000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v43) S1000x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v43) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S1000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x512 : Shape := ⟨2, ![50000, 512]⟩
abbrev S512x512 : Shape := ⟨2, ![512, 512]⟩
abbrev S512 : Shape := ⟨1, ![512]⟩
abbrev S2x160000 : Shape := ⟨2, ![2, 160000]⟩
abbrev S1x160000 : Shape := ⟨2, ![1, 160000]⟩
abbrev S160000 : Shape := ⟨1, ![160000]⟩
abbrev S_ : Shape := ⟨0, ![]⟩
abbrev S50000 : Shape := ⟨1, ![50000]⟩
abbrev S160000x1 : Shape := ⟨2, ![160000, 1]⟩
abbrev S160000x512 : Shape := ⟨2, ![160000, 512]⟩
abbrev S1x512 : Shape := ⟨2, ![1, 512]⟩
abbrev S50000x1 : Shape := ⟨2, ![50000, 1]⟩

abbrev nBuf : Space → Nat
  | .hbm => 131
  | .vmem => 0
  | .smem => 0
  | _ => 0

abbrev hbmTy0_0 (i : Nat) : BufTy := match i % 128 with
  | 0 => ⟨S50000x512, .f32⟩
  | 1 => ⟨S512x512, .f32⟩
  | 2 => ⟨S512x512, .f32⟩
  | 3 => ⟨S512, .f32⟩
  | 4 => ⟨S512, .f32⟩
  | 5 => ⟨S512, .f32⟩
  | 6 => ⟨S512x512, .f32⟩
  | 7 => ⟨S512x512, .f32⟩
  | 8 => ⟨S512, .f32⟩
  | 9 => ⟨S2x160000, .i32⟩
  | 10 => ⟨S1x160000, .i32⟩
  | 11 => ⟨S160000, .i32⟩
  | 12 => ⟨S1x160000, .i32⟩
  | 13 => ⟨S160000, .i32⟩
  | 14 => ⟨S_, .f32⟩
  | 15 => ⟨S160000, .f32⟩
  | 16 => ⟨S_, .f32⟩
  | 17 => ⟨S50000, .f32⟩
  | 18 => ⟨S160000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S160000, .i32⟩
  | 33 => ⟨S160000, .i1⟩
  | 34 => ⟨S_, .i32⟩
  | 35 => ⟨S160000, .i32⟩
  | 36 => ⟨S160000, .i32⟩
  | 37 => ⟨S160000, .i32⟩
  | 38 => ⟨S160000x1, .i32⟩
  | 39 => ⟨S160000, .f32⟩
  | 40 => ⟨S160000, .f32⟩
  | 41 => ⟨S_, .i32⟩
  | 42 => ⟨S160000, .i32⟩
  | 43 => ⟨S160000, .i1⟩
  | 44 => ⟨S_, .i32⟩
  | 45 => ⟨S160000, .i32⟩
  | 46 => ⟨S160000, .i32⟩
  | 47 => ⟨S160000, .i32⟩
  | 48 => ⟨S160000x1, .i32⟩
  | 49 => ⟨S160000, .f32⟩
  | 50 => ⟨S160000, .f32⟩
  | 51 => ⟨S50000x512, .f32⟩
  | 52 => ⟨S_, .i32⟩
  | 53 => ⟨S160000, .i32⟩
  | 54 => ⟨S160000, .i1⟩
  | 55 => ⟨S_, .i32⟩
  | 56 => ⟨S160000, .i32⟩
  | 57 => ⟨S160000, .i32⟩
  | 58 => ⟨S160000, .i32⟩
  | 59 => ⟨S160000x1, .i32⟩
  | 60 => ⟨S160000x512, .f32⟩
  | 61 => ⟨S160000x1, .f32⟩
  | 62 => ⟨S160000x512, .f32⟩
  | 63 => ⟨S160000x512, .f32⟩
  | 64 => ⟨S_, .f32⟩
  | 65 => ⟨S50000x512, .f32⟩
  | 66 => ⟨S160000x1, .i32⟩
  | 67 => ⟨S50000x512, .f32⟩
  | 68 => ⟨S50000x512, .f32⟩
  | 69 => ⟨S50000x512, .f32⟩
  | 70 => ⟨S1x512, .f32⟩
  | 71 => ⟨S50000x512, .f32⟩
  | 72 => ⟨S50000x512, .f32⟩
  | 73 => ⟨S_, .f32⟩
  | 74 => ⟨S50000, .f32⟩
  | 75 => ⟨S50000x1, .f32⟩
  | 76 => ⟨S_, .f32⟩
  | 77 => ⟨S50000x1, .f32⟩
  | 78 => ⟨S50000x1, .f32⟩
  | 79 => ⟨S50000x512, .f32⟩
  | 80 => ⟨S50000x512, .f32⟩
  | 81 => ⟨S50000x512, .f32⟩
  | 82 => ⟨S_, .f32⟩
  | 83 => ⟨S50000, .f32⟩
  | 84 => ⟨S50000x1, .f32⟩
  | 85 => ⟨S_, .f32⟩
  | 86 => ⟨S50000x1, .f32⟩
  | 87 => ⟨S50000x1, .f32⟩
  | 88 => ⟨S50000x512, .f32⟩
  | 89 => ⟨S50000x512, .f32⟩
  | 90 => ⟨S_, .f32⟩
  | 91 => ⟨S50000x1, .f32⟩
  | 92 => ⟨S50000x1, .f32⟩
  | 93 => ⟨S50000x1, .f32⟩
  | 94 => ⟨S50000x512, .f32⟩
  | 95 => ⟨S50000x512, .f32⟩
  | 96 => ⟨S1x512, .f32⟩
  | 97 => ⟨S50000x512, .f32⟩
  | 98 => ⟨S50000x512, .f32⟩
  | 99 => ⟨S1x512, .f32⟩
  | 100 => ⟨S50000x512, .f32⟩
  | 101 => ⟨S50000x512, .f32⟩
  | 102 => ⟨S_, .f32⟩
  | 103 => ⟨S50000x512, .f32⟩
  | 104 => ⟨S50000x512, .i1⟩
  | 105 => ⟨S_, .f32⟩
  | 106 => ⟨S50000x512, .f32⟩
  | 107 => ⟨S50000x512, .f32⟩
  | 108 => ⟨S50000x512, .f32⟩
  | 109 => ⟨S50000x512, .f32⟩
  | 110 => ⟨S_, .i32⟩
  | 111 => ⟨S160000, .i32⟩
  | 112 => ⟨S160000, .i1⟩
  | 113 => ⟨S_, .i32⟩
  | 114 => ⟨S160000, .i32⟩
  | 115 => ⟨S160000, .i32⟩
  | 116 => ⟨S160000, .i32⟩
  | 117 => ⟨S160000x1, .i32⟩
  | 118 => ⟨S160000x512, .f32⟩
  | 119 => ⟨S160000x1, .f32⟩
  | 120 => ⟨S160000x512, .f32⟩
  | 121 => ⟨S160000x512, .f32⟩
  | 122 => ⟨S_, .f32⟩
  | 123 => ⟨S50000x512, .f32⟩
  | 124 => ⟨S160000x1, .i32⟩
  | 125 => ⟨S50000x512, .f32⟩
  | 126 => ⟨S50000x512, .f32⟩
  | 127 => ⟨S50000x512, .f32⟩
  | _ => ⟨S50000x512, .f32⟩

abbrev hbmTy0_1 (i : Nat) : BufTy := match i % 128 with
  | 0 => ⟨S1x512, .f32⟩
  | 1 => ⟨S50000x512, .f32⟩
  | 2 => ⟨S50000x512, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_15 : Ref sig .tc := ⟨.hbm, 102, rfl⟩
abbrev main_v73 : Ref sig .tc := ⟨.hbm, 103, rfl⟩
abbrev main_v74 : Ref sig .tc := ⟨.hbm, 104, rfl⟩
abbrev main_cst_16 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S50000 : S_.BroadcastsInDim S50000 (![] : Fin 0 → Fin S50000.rank)
  bcast_S160000_S160000x1_0 : S160000.BroadcastsInDim S160000x1 (![0] : Fin 1 → Fin S160000x1.rank)
  bcast_S160000x1_S160000x512_0_1 : S160000x1.BroadcastsInDim S160000x512 (![0, 1] : Fin 2 → Fin S160000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  reducesTo_S50000x512_S50000_d1 : S50000x512.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x512_0_1 : S50000x1.BroadcastsInDim S50000x512 (![0, 1] : Fin 2 → Fin S50000x512.rank)
  scatter_S50000_S160000x1_S160000_n_0_0_1_wf : ScatterDims.WF S50000 S160000x1 S160000 [] [0] [0] 1
  gather_S50000_S160000x1_S160000_n_0_n_n_0_1_1_wf : GatherDims.WF S50000 S160000x1 S160000 [] [0] [] [0] [] 1 ![1]
  dot_S50000x512_S512x512_S50000x512_1_0_0_1_n_n_wf : DotDims.WF S50000x512 S512x512 S50000x512 [1] [0] [0] [1] [] []
  gather_S50000x512_S160000x1_S160000x512_1_0_n_n_0_1_1512_wf : GatherDims.WF S50000x512 S160000x1 S160000x512 [1] [0] [] [0] [] 1 ![1, 512]
  scatter_S50000x512_S160000x1_S160000x512_1_0_0_1_wf : ScatterDims.WF S50000x512 S160000x1 S160000x512 [1] [0] [0] 1

variable [Facts₀]

def scatter_S50000_S160000x1_S160000_n_0_0_1 : ScatterDims S50000 S160000x1 S160000 where
  updateWindowDims := []
  insertedWindowDims := [0]
  scatterDimsToOperandDims := [0]
  indexVectorDim := 1
  wf := scatter_S50000_S160000x1_S160000_n_0_0_1_wf
def gather_S50000_S160000x1_S160000_n_0_n_n_0_1_1 : GatherDims S50000 S160000x1 S160000 where
  offsetDims := []
  collapsedSliceDims := [0]
  operandBatchingDims := []
  startIndicesBatchingDims := []
  startIndexMap := [0]
  indexVectorDim := 1
  sliceSizes := ![1]
  wf := gather_S50000_S160000x1_S160000_n_0_n_n_0_1_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def gather_S50000x512_S160000x1_S160000x512_1_0_n_n_0_1_1512 : GatherDims S50000x512 S160000x1 S160000x512 where
  offsetDims := [1]
  collapsedSliceDims := [0]
  operandBatchingDims := []
  startIndicesBatchingDims := []
  startIndexMap := [0]
  indexVectorDim := 1
  sliceSizes := ![1, 512]
  wf := gather_S50000x512_S160000x1_S160000x512_1_0_n_n_0_1_1512_wf
def scatter_S50000x512_S160000x1_S160000x512_1_0_0_1 : ScatterDims S50000x512 S160000x1 S160000x512 where
  updateWindowDims := [1]
  insertedWindowDims := [0]
  scatterDimsToOperandDims := [0]
  indexVectorDim := 1
  wf := scatter_S50000x512_S160000x1_S160000x512_1_0_0_1_wf

class Facts : Prop extends Facts₀ where

variable [Facts]
-- ==== Proof.Spec.lean ====
/-
  The mathematics both programs compute, stated once, entry by entry, on the extended reals.

  A layer of the network takes a node-feature matrix `x` (one row per node, 512 features) and the matrix `t` of the
  same features propagated once along the graph's edges, and forms, row by row,
      o = x · W0 + t · W1 + b                                   (`linRow`: two 512-term dot products and a bias).
  The first layer then normalises every row: with `μ` the mean of the row (its sum divided by 512) and `σ²` the
  mean of the squared deviations,
      n = (o − μ) · (σ² + ε)^(−1/2) · γ + β                      (`normRow`),
  and passes the result through the leaky rectifier, `z` where `z ≥ 0` and `0.01 · z` elsewhere (`leaky`).  The
  second layer is the bare `linRow` of the first layer's output.  Every entry of a layer's output depends on one row
  of `x`, the same row of `t`, and the weights: this is what lets a computation that walks the rows in blocks of
  1000 and one that treats all 50000 rows at once agree entry by entry.

  The float literals (512, ε, the slope 0.01, zero) stay the binary words both programs print: the same word on both
  sides is the same extended real, and is never evaluated.
-/
import Idealize.ShloMosaic.PureOps.Ideal
import Idealize.ShloMosaic.PureOps.Ideal.Laws
import Idealize.ShloMosaic.Lib.ValueIdx

noncomputable section

namespace Cert.Cheb

open Idealize.ShloMosaic Idealize.ShloMosaic.ValueIdx
open scoped BigOperators

/-- A matrix of extended reals with `a` rows and `b` columns, as a function of its index. -/
abbrev Mat (a b : ℕ) : Type := (⟨2, ![a, b]⟩ : Shape).Idx → EReal
/-- A vector of `a` extended reals, as a function of its index. -/
abbrev Vct (a : ℕ) : Type := (⟨1, ![a]⟩ : Shape).Idx → EReal

/-- Entry `c` of the row `xr · W0 + tr · W1 + b`: two dot products over the 512 features, then the bias. -/
def linRow (xr tr : Fin 512 → EReal) (W0 W1 : Mat 512 512) (b : Vct 512) (c : Fin 512) : EReal :=
  (∑ k : Fin 512, xr k * W0 (ix2 k c)) + (∑ k : Fin 512, tr k * W1 (ix2 k c)) + b (ix1 c)

/-- The mean of a row of 512 entries: their sum divided by the float word of 512. -/
def rowMean (f : Fin 512 → EReal) : EReal :=
  Ideal.div (∑ c : Fin 512, f c) (Ideal.ofBits .f32 0x44000000#32)

/-- Entry `c` of the normalised row: the deviation from the row's mean, times the reciprocal square root of the
    row's variance plus ε, times γ, plus β. -/
def normRow (o : Fin 512 → EReal) (g be : Vct 512) (c : Fin 512) : EReal :=
  (o c - rowMean o)
      * Ideal.rsqrt (rowMean (fun c' => (o c' - rowMean o) * (o c' - rowMean o)) + Ideal.ofBits .f32 0x3727C5AC#32)
      * g (ix1 c)
    + be (ix1 c)

/-- The leaky rectifier: `z` where `z ≥ 0`, the slope word times `z` elsewhere. -/
def leaky (z : EReal) : EReal :=
  Scalar.select (Ideal.cmp .oge z (Ideal.ofBits .f32 0x00000000#32)) z (Ideal.ofBits .f32 0x3C23D70A#32 * z)

/-- Entry `c` of a row of the first layer's output, from that row of `x` and of `t`. -/
def layer1Row (xr tr : Fin 512 → EReal) (W0 W1 : Mat 512 512) (b g be : Vct 512) (c : Fin 512) : EReal :=
  leaky (normRow (linRow xr tr W0 W1 b) g be c)

/-- The first layer on all `n` rows. -/
def layer1 {n : ℕ} (x t : Mat n 512) (W0 W1 : Mat 512 512) (b g be : Vct 512) : Mat n 512 :=
  fun j => layer1Row (fun k => x (ix2 (j 0) k)) (fun k => t (ix2 (j 0) k)) W0 W1 b g be (j 1)

/-- The second layer on all `n` rows: the two products and the bias, nothing else. -/
def layer2 {n : ℕ} (h t : Mat n 512) (W0 W1 : Mat 512 512) (b : Vct 512) : Mat n 512 :=
  fun j => linRow (fun k => h (ix2 (j 0) k)) (fun k => t (ix2 (j 0) k)) W0 W1 b (j 1)

theorem layer1_apply {n : ℕ} (x t : Mat n 512) (W0 W1 : Mat 512 512) (b g be : Vct 512) (r : Fin n) (c : Fin 512) :
    layer1 x t W0 W1 b g be (ix2 r c)
      = layer1Row (fun k => x (ix2 r k)) (fun k => t (ix2 r k)) W0 W1 b g be c := rfl

theorem layer2_apply {n : ℕ} (h t : Mat n 512) (W0 W1 : Mat 512 512) (b : Vct 512) (r : Fin n) (c : Fin 512) :
    layer2 h t W0 W1 b (ix2 r c) = linRow (fun k => h (ix2 r k)) (fun k => t (ix2 r k)) W0 W1 b c := rfl

end Cert.Cheb

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.LibColumnCasts.lean ====
/-
  Shape casts between a vector and the column that holds it, read at an index given by coordinates.

  A vector of `a` entries and an `a` by 1 column list the same entries in the same row-major order, so a cast either
  way reads entry `i` of the one at row `i` of the other; likewise a scalar and a 1 by 1 array hold one entry.  These
  are the "keepdims" forms a row sum meets when its result is kept as a column: the vector-to-column cast after the
  sum, the column-to-vector cast when the column is handed back as a vector, and the scalar-to-array cast of a total.
  Also here: the sum over a vector's indices as the sum over its coordinates, and a lane sum over the second axis of a
  matrix at the ideal values, as the plain sum over the columns of one row.
-/
import Idealize.ShloMosaic.Lib.Pipeline.Value
import Idealize.ShloMosaic.Lib.ValueIdx
import Idealize.ShloMosaic.PureOps.Ideal.Laws

namespace Cert.ColumnCasts

open Idealize.ShloMosaic Idealize.ShloMosaic.ValueIdx
open scoped BigOperators

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A scalar (rank 0) cast to a `[1, 1]` array reads, at its one index, the scalar: a rank-0 shape has one index. -/
theorem shapeCast_scalar_11_apply (x : (⟨0, ![]⟩ : Shape).Idx → α) (h : (⟨0, ![]⟩ : Shape).ShapeCasts ⟨2, ![1, 1]⟩)
    (j : (⟨2, ![1, 1]⟩ : Shape).Idx) : shapeCast ⟨2, ![1, 1]⟩ x h j = x ix0 :=
  congrArg x (funext fun d => d.elim0)

/-- The indices of a vector of `n` entries are its coordinates. -/
def vectorIdxEquiv {n : ℕ} : (⟨1, ![n]⟩ : Shape).Idx ≃ Fin n where
  toFun i := i 0
  invFun := ix1
  left_inv i := (eq_ix1 i).symm
  right_inv _ := rfl

/-- A sum over the indices of a vector is the sum over its coordinates. -/
theorem sum_vectorIdx {M : Type} [AddCommMonoid M] {n : ℕ} (f : (⟨1, ![n]⟩ : Shape).Idx → M) :
    ∑ i, f i = ∑ o : Fin n, f (ix1 o) :=
  (Equiv.sum_comp (vectorIdxEquiv (n := n)).symm f).symm

/-- At the ideal values the lane sum of an `[a, b]` matrix over its second axis is, at row `p`, the sum over the
    columns `k` of the entry `(p, k)`.  The accumulator is the zero word, which is the neutral element of the sum. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun d => Fin.ext (by
      match d with
      | ⟨0, _⟩ => rfl
      | ⟨1, _⟩ => rfl)))

end Cert.ColumnCasts
-- ==== Proof.Payload.lean ====
/-
  The two kernel bodies, read entry by entry.

  Each body works on one block of 1000 rows: it loads the block of `x`, the block of the propagated features, the
  two 512 × 512 weights and the bias vectors, and stores one 1000 × 512 block.  Read at row `p` and column `c` of the
  block, what it stores is the specification's row function of row `p` of the two input blocks:
  the roundings to the narrow float format on the way into the matrix unit are the identity on extended reals; a
  matrix product into a zero accumulator is the plain 512-term sum; a lane sum over the feature axis is the plain
  sum over the columns of one row; a vector kept as a column and broadcast back along the row is that row's one
  number; a length-512 vector laid as one row and broadcast down the rows is its entry at the column.
-/
import proofs.«136306_j4853313045127_1_alg».proof.Proof.Gen.KernelIdeal.Skeleton
import proofs.«136306_j4853313045127_1_alg».proof.Proof.Spec
import proofs.«136306_j4853313045127_1_alg».proof.Proof.LibKeepdims
import proofs.«136306_j4853313045127_1_alg».proof.Proof.LibColumnCasts
import Idealize.ShloMosaic.Lib.Pipeline.Value
import Idealize.ShloMosaic.Lib.ValueIdx
import Idealize.ShloMosaic.Lib.ValueLayout
import Idealize.ShloMosaic.PureOps.Ideal.Laws

noncomputable section

namespace Cert.Cheb.Kernel

open Cert.KernelIdeal Cert.KernelIdeal.Gen Idealize.ShloMosaic Idealize.ShloMosaic.ValueIdx
open scoped BigOperators

/-- The matrix unit's dimension record for a 1000 × 512 block against a 512 × 512 weight. -/
abbrev D : DotDims S1000x512 S512x512 S1000x512 := dot_S1000x512_S512x512_S1000x512_1_0_0_1_n_n

theorem lhs_row (i : S1000x512.Idx) (q : D.contr.Idx) : (D.lhsIdx i q 0).val = (i 0).val := by
  unfold DotDims.lhsIdx
  rw [dif_neg (show ¬(0 : Fin S1000x512.rank) ∈ D.lhsBatch by decide), dif_pos (show (0 : Fin S1000x512.rank) ∈ D.lhsNonContracting by decide)]
  rfl

theorem rhs_col (i : S1000x512.Idx) (q : D.contr.Idx) : (D.rhsIdx i q 1).val = (i 1).val := by
  unfold DotDims.rhsIdx
  rw [dif_neg (show ¬(1 : Fin S512x512.rank) ∈ D.rhsBatch by decide), dif_pos (show (1 : Fin S512x512.rank) ∈ D.rhsNonContracting by decide)]
  rfl

/-- A block times a weight into a zero accumulator, at `(p, c)`: the sum over the 512 features `k` of the block's
    `(p, k)` times the weight's `(k, c)`. -/
theorem matmul_block_apply {φ₁ φ₂ : FTy} (l : FVec Ideal S1000x512 φ₁) (r : FVec Ideal S512x512 φ₂) (p : Fin 1000) (c : Fin 512) :
    matmul D none l r (constant S1000x512 .f32 0x00000000#32) (ix2 p c) = ∑ k : Fin 512, l (ix2 p k) * r (ix2 k c) := by
  refine (Ideal.matmul_constant_zero_apply D none l r (ix2 p c)).trans ?_
  rw [← Equiv.sum_comp (contrEquiv1 D 512 rfl rfl).symm]
  refine Finset.sum_congr rfl fun k _ => ?_
  have hk := contrEquiv1_symm_val D 512 rfl rfl k
  have el : D.lhsIdx (ix2 p c) ((contrEquiv1 D 512 rfl rfl).symm k) = ix2 p k := funext fun a => Fin.ext (by
    match a with
    | ⟨0, _⟩ => exact lhs_row _ _
    | ⟨1, _⟩ => exact (D.lhsIdx_val_of_single rfl _ _).trans hk)
  have er : D.rhsIdx (ix2 p c) ((contrEquiv1 D 512 rfl rfl).symm k) = ix2 k c := funext fun a => Fin.ext (by
    match a with
    | ⟨0, _⟩ => exact (D.rhsIdx_val_of_single rfl _ _).trans hk
    | ⟨1, _⟩ => exact rhs_col _ _)
  rw [el, er]

/-- A length-512 vector laid as one row and broadcast down 1000 rows reads, at `(p, c)`, the vector at `c`. -/
theorem rowVec_apply (v : FVec Ideal S512 .f32) (p : Fin 1000) (c : Fin 512) :
    broadcastTo S1000x512 (shapeCast S1x512 v shapeCasts_S512_S1x512) broadcasts_S1x512_S1000x512 (ix2 p c) = v (ix1 c) :=
  (broadcastTo_1b_ab_apply (shapeCast S1x512 v shapeCasts_S512_S1x512) broadcasts_S1x512_S1000x512 p c).trans
    (shapeCast_a_1a_apply v shapeCasts_S512_S1x512 (0 : Fin 1) c)

/-- A 1000 × 1 column broadcast along the 512 columns reads, at `(p, c)`, the column's entry of row `p`. -/
theorem colVec_apply (u : FVec Ideal S1000x1 .f32) (p : Fin 1000) (c : Fin 512) :
    broadcastTo S1000x512 u broadcasts_S1000x1_S1000x512 (ix2 p c) = u (ix2 p (0 : Fin 1)) :=
  Cert.Keepdims.broadcastTo_a1_ab_apply u broadcasts_S1000x1_S1000x512 p c

/-- A length-1000 vector kept as a column reads, at `(p, 0)`, the vector at `p`. -/
theorem col_apply (w : FVec Ideal S1000 .f32) (p : Fin 1000) :
    shapeCast S1000x1 w shapeCasts_S1000_S1000x1 (ix2 p (0 : Fin 1)) = w (ix1 p) :=
  Cert.Keepdims.shapeCast_a_a1_apply w shapeCasts_S1000_S1000x1 p 0

/-- The lane sum of a block over its feature axis, at row `p`. -/
theorem laneSum_apply (src : FVec Ideal S1000x512 .f32) (hφ : FTy.f32 = FTy.f32 ∨ FTy.f32 = FTy.bf16)
    (hacc : (0x00000000#32 : BitVec 32) = 0x00000000#32) (p : Fin 1000) :
    multiReduction .add [1] S1000 src 0x00000000#32 reduces_S1000x512_S1000 hφ hacc (ix1 p) = ∑ k : Fin 512, src (ix2 p k) :=
  Cert.ColumnCasts.rowSum_apply src reduces_S1000x512_S1000 hφ hacc p

/-- The reciprocal square root of a vector, entry by entry. -/
theorem rsqrt_apply {s : Shape} {φ : FTy} (a : FVec Ideal s φ) (i : s.Idx) : rsqrt a i = Ideal.rsqrt (a i) := rfl

/-- The second kernel's stored block at `(p, c)`: the two products and the bias of row `p`. -/
theorem pay1_apply (x0 x1 : FVec Ideal S1000x512 .f32) (x2 x3 : FVec Ideal S512x512 .f32) (x4 : FVec Ideal S512 .f32)
    (p : Fin 1000) (c : Fin 512) :
    k1_pay1 (F := Ideal) x0 x1 x2 x3 x4 (ix2 p c)
      = Cert.Cheb.linRow (fun k => x0 (ix2 p k)) (fun k => x1 (ix2 p k)) x2 x3 x4 c := by
  unfold k1_pay1
  simp only [shapeCast_self]
  show matmul D none _ _ _ (ix2 p c) + matmul D none _ _ _ (ix2 p c) + broadcastTo S1000x512 _ _ (ix2 p c) = _
  rw [matmul_block_apply, matmul_block_apply, rowVec_apply]
  rfl

/-- The first kernel's stored block at `(p, c)`: the normalised, rectified row `p`. -/
theorem pay0_apply (x0 x1 : FVec Ideal S1000x512 .f32) (x2 x3 : FVec Ideal S512x512 .f32) (x4 x5 x6 : FVec Ideal S512 .f32)
    (p : Fin 1000) (c : Fin 512) :
    k0_pay1 (F := Ideal) (k0_pay2 (F := Ideal) x0 x1 x2 x3 x4 x5 x6) (Scalar.ofBits .f32 0x00000000#32) (ix2 p c)
      = Cert.Cheb.layer1Row (fun k => x0 (ix2 p k)) (fun k => x1 (ix2 p k)) x2 x3 x4 x5 x6 c := by
  unfold k0_pay1 k0_pay2
  simp only [shapeCast_self, select_apply, cmpf_apply, mulf_apply, addf_apply, subf_apply, divf_apply, rsqrt_apply, broadcast_apply,
    rowVec_apply, colVec_apply, col_apply, matmul_block_apply, truncf_apply]
  repeat (rw [laneSum_apply]; try simp only [shapeCast_self, select_apply, cmpf_apply, mulf_apply, addf_apply, subf_apply, divf_apply,
    rsqrt_apply, broadcast_apply, rowVec_apply, colVec_apply, col_apply, matmul_block_apply, truncf_apply])
  unfold Cert.Cheb.layer1Row Cert.Cheb.leaky Cert.Cheb.normRow Cert.Cheb.rowMean Cert.Cheb.linRow
  rfl

end Cert.Cheb.Kernel

end
-- ==== Proof.Blocks0.lean ====
/-
  From blocks to the array, first kernel.

  The first kernel walks the 50000 rows in 50 blocks of 1000: at grid point `t` it is handed rows
  `1000·t … 1000·t + 999` of `x` and of the propagated features, the whole of each weight matrix and of each
  length-512 vector, and writes back rows `1000·t … 1000·t + 999` of its output.  Entry `(p, q)` of the block
  written at `t` is the specification's row function of row `p` of the two input blocks, which is row
  `1000·t + p` of the two whole arrays: so the block written at `t` is block `t` of ONE whole-array function, the
  first layer of the arrays as the kernel finds them.  Row `r` lies in the block of point `r / 1000`, so the 50
  blocks cover the array, and the array ends holding that function everywhere.
  Everything is stated for ANY contents `V` of the buffers at the kernel's entry.
-/
import proofs.«136306_j4853313045127_1_alg».proof.Proof.Gen.KernelIdeal.Frame
import proofs.«136306_j4853313045127_1_alg».proof.Proof.Payload
import Idealize.ShloMosaic.Lib.Pipeline.Value

set_option maxRecDepth 16384

noncomputable section

namespace Cert.Cheb.Kernel

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The first kernel's index maps over its 50 points: the row-blocked windows (both inputs and the output) sit at
    block `t` of the rows and block 0 of the columns; every other window at block 0 throughout. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (0 : Fin 2) = t.val ∧ win0_7.index t (1 : Fin 2) = 0 :=
  (by decide +kernel : ∀ t : Fin grid0.N, _)

/-- Row `p` of the block of point `t` is row `1000·t + p` of the array. -/
def rowAt (t : Fin 50) (p : Fin 1000) : Fin 50000 := ⟨t.val * 1000 + p.val, by have := t.isLt; have := p.isLt; omega⟩

/-- Point `t` as one of the 50 (the grid's size is 50). -/
def pt0 (t : Fin cfg0.N) : Fin 50 := ⟨t.val, by have := t.isLt; have h : cfg0.N = 50 := N_0; omega⟩

theorem read0_0 (c : Dev nD) (t : Fin cfg0.N) (p : Fin 1000) (k : Fin 512) :
    iblk0 V c 0 t (ix2 p k) = V c main_arg0 (ix2 (rowAt (pt0 t) p) k) := by
  obtain ⟨e0, e1, -⟩ := idx_facts0 t
  show V c main_arg0 (((cfg0.win 0).blk t).view.emb (ix2 p k)) = V c main_arg0 (ix2 (rowAt (pt0 t) p) k)
  refine congrArg _ (funext fun a => Fin.ext ?_)
  match a with
  | ⟨0, _⟩ => show win0_0.index t (0 : Fin 2) * 1000 + 1 * p.val = t.val * 1000 + p.val; rw [e0]; omega
  | ⟨1, _⟩ => show win0_0.index t (1 : Fin 2) * 512 + 1 * k.val = k.val; rw [e1]; omega

theorem read0_1 (c : Dev nD) (t : Fin cfg0.N) (p : Fin 1000) (k : Fin 512) :
    iblk0 V c 1 t (ix2 p k) = V c main_v42 (ix2 (rowAt (pt0 t) p) k) := by
  obtain ⟨-, -, e0, e1, -⟩ := idx_facts0 t
  show V c main_v42 (((cfg0.win 1).blk t).view.emb (ix2 p k)) = V c main_v42 (ix2 (rowAt (pt0 t) p) k)
  refine congrArg _ (funext fun a => Fin.ext ?_)
  match a with
  | ⟨0, _⟩ => show win0_1.index t (0 : Fin 2) * 1000 + 1 * p.val = t.val * 1000 + p.val; rw [e0]; omega
  | ⟨1, _⟩ => show win0_1.index t (1 : Fin 2) * 512 + 1 * k.val = k.val; rw [e1]; omega

theorem read0_2 (c : Dev nD) (t : Fin cfg0.N) : (iblk0 V c 2 t : S512x512.Idx → EReal) = V c main_arg1 := by
  obtain ⟨-, -, -, -, e0, e1, -⟩ := idx_facts0 t
  funext y
  show V c main_arg1 (((cfg0.win 2).blk t).view.emb y) = V c main_arg1 y
  refine congrArg _ (funext fun a => Fin.ext ?_)
  match a with
  | ⟨0, _⟩ => show win0_2.index t (0 : Fin 2) * 512 + 1 * (y 0).val = (y 0).val; rw [e0]; omega
  | ⟨1, _⟩ => show win0_2.index t (1 : Fin 2) * 512 + 1 * (y 1).val = (y 1).val; rw [e1]; omega

theorem read0_3 (c : Dev nD) (t : Fin cfg0.N) : (iblk0 V c 3 t : S512x512.Idx → EReal) = V c main_arg2 := by
  obtain ⟨-, -, -, -, -, -, e0, e1, -⟩ := idx_facts0 t
  funext y
  show V c main_arg2 (((cfg0.win 3).blk t).view.emb y) = V c main_arg2 y
  refine congrArg _ (funext fun a => Fin.ext ?_)
  match a with
  | ⟨0, _⟩ => show win0_3.index t (0 : Fin 2) * 512 + 1 * (y 0).val = (y 0).val; rw [e0]; omega
  | ⟨1, _⟩ => show win0_3.index t (1 : Fin 2) * 512 + 1 * (y 1).val = (y 1).val; rw [e1]; omega

theorem read0_4 (c : Dev nD) (t : Fin cfg0.N) : (iblk0 V c 4 t : S512.Idx → EReal) = V c main_arg3 := by
  obtain ⟨-, -, -, -, -, -, -, -, e0, -⟩ := idx_facts0 t
  funext y
  show V c main_arg3 (((cfg0.win 4).blk t).view.emb y) = V c main_arg3 y
  refine congrArg _ (funext fun a => Fin.ext ?_)
  match a with
  | ⟨0, _⟩ => show win0_4.index t (0 : Fin 1) * 512 + 1 * (y 0).val = (y 0).val; rw [e0]; omega

theorem read0_5 (c : Dev nD) (t : Fin cfg0.N) : (iblk0 V c 5 t : S512.Idx → EReal) = V c main_arg4 := by
  obtain ⟨-, -, -, -, -, -, -, -, -, e0, -⟩ := idx_facts0 t
  funext y
  show V c main_arg4 (((cfg0.win 5).blk t).view.emb y) = V c main_arg4 y
  refine congrArg _ (funext fun a => Fin.ext ?_)
  match a with
  | ⟨0, _⟩ => show win0_5.index t (0 : Fin 1) * 512 + 1 * (y 0).val = (y 0).val; rw [e0]; omega

theorem read0_6 (c : Dev nD) (t : Fin cfg0.N) : (iblk0 V c 6 t : S512.Idx → EReal) = V c main_arg5 := by
  obtain ⟨-, -, -, -, -, -, -, -, -, -, e0, -⟩ := idx_facts0 t
  funext y
  show V c main_arg5 (((cfg0.win 6).blk t).view.emb y) = V c main_arg5 y
  refine congrArg _ (funext fun a => Fin.ext ?_)
  match a with
  | ⟨0, _⟩ => show win0_6.index t (0 : Fin 1) * 512 + 1 * (y 0).val = (y 0).val; rw [e0]; omega

/-- Where entry `(p, q)` of the output block of point `t` sits in the output array. -/
theorem emb0_7 (t : Fin cfg0.N) (p : Fin 1000) (q : Fin 512) :
    ((cfg0.win 7).blk t).view.emb (ix2 p q) = ix2 (rowAt (pt0 t) p) q := by
  obtain ⟨-, -, -, -, -, -, -, -, -, -, -, e0, e1⟩ := idx_facts0 t
  refine funext fun a => Fin.ext ?_
  match a with
  | ⟨0, _⟩ => show win0_7.index t (0 : Fin 2) * 1000 + 1 * p.val = t.val * 1000 + p.val; rw [e0]; omega
  | ⟨1, _⟩ => show win0_7.index t (1 : Fin 2) * 512 + 1 * q.val = q.val; rw [e1]; omega

/-- The first layer of the arrays as the first kernel finds them. -/
abbrev L1 (c : Dev nD) : S50000x512.Idx → EReal :=
  Cert.Cheb.layer1 (V c main_arg0) (V c main_v42) (V c main_arg1) (V c main_arg2) (V c main_arg3) (V c main_arg4) (V c main_arg5)

/-- What point `t` writes back is block `t` of the first layer. -/
theorem flushed0_eq (c : Dev nD) (t : Fin cfg0.N) :
    (dat0 (F := Ideal) V c).flushed 7 t = ((cfg0.win 7).blk t).view.read (Elt Ideal) (L1 V c) := by
  show (cfg0.win 7).cut (grid0.coords t) ((dat0 (F := Ideal) V c).after 7 t) = _
  rw [after0_7]
  unfold out0_7
  rw [View.canon_unit_zero hz2]
  simp only [View.ld_unit_zero (S := S1000x512) hz2, View.ld_unit_zero (S := S512x512) hz2, View.ld_unit_zero (S := S512) hz1]
  funext j
  obtain ⟨p, q, rfl⟩ : ∃ (p : Fin 1000) (q : Fin 512), j = ix2 p q := ⟨j 0, j 1, eq_ix2 j⟩
  show k0_pay1 (F := Ideal) (k0_pay2 (F := Ideal) (iblk0 V c 0 t) (iblk0 V c 1 t) (iblk0 V c 2 t) (iblk0 V c 3 t) (iblk0 V c 4 t) (iblk0 V c 5 t) (iblk0 V c 6 t))
      (Scalar.ofBits .f32 0x00000000#32) (ix2 p q) = L1 V c (((cfg0.win 7).blk t).view.emb (ix2 p q))
  refine (pay0_apply (iblk0 V c 0 t) (iblk0 V c 1 t) (iblk0 V c 2 t) (iblk0 V c 3 t) (iblk0 V c 4 t) (iblk0 V c 5 t) (iblk0 V c 6 t) p q).trans ?_
  rw [emb0_7 t p q, read0_2 V c t, read0_3 V c t, read0_4 V c t, read0_5 V c t, read0_6 V c t]
  unfold L1
  rw [Cert.Cheb.layer1_apply]
  simp only [read0_0 V c t, read0_1 V c t]

theorem mem_blk0_7 (t : Fin cfg0.N) (i : S50000x512.Idx) :
    i ∈ ((cfg0.win 7).blk t).view.set ↔ ∀ a : Fin 2, win0_7.index t a * S1000x512.size a ≤ (i a).val ∧ (i a).val < win0_7.index t a * S1000x512.size a + S1000x512.size a := by
  show i ∈ ((View.whole main_v43).slice (win0_7.rect t)).set ↔ _
  rw [View.set_slice_whole, Rect.mem_set_unit]
  exact Iff.rfl

/-- Every entry of the output array lies in the block of the point its row selects. -/
theorem cover0 (i : S50000x512.Idx) : ∃ t : Fin cfg0.N, (cfg0.win 7).flush t = true ∧ i ∈ ((cfg0.win 7).blk t).view.set := by
  have hi0 : (i 0).val < 50000 := (i 0).isLt
  have hi1 : (i 1).val < 512 := (i 1).isLt
  have hN : cfg0.N = 50 := N_0
  let t : Fin cfg0.N := ⟨(i 0).val / 1000, by omega⟩
  obtain ⟨-, -, -, -, -, -, -, -, -, -, -, e0, e1⟩ := idx_facts0 t
  refine ⟨t, flush0_7 t, ?_⟩
  rw [mem_blk0_7]
  intro a
  have ht : t.val = (i 0).val / 1000 := rfl
  match a with
  | ⟨0, _⟩ => show win0_7.index t (0 : Fin 2) * 1000 ≤ (i 0).val ∧ (i 0).val < win0_7.index t (0 : Fin 2) * 1000 + 1000; rw [e0]; omega
  | ⟨1, _⟩ => show win0_7.index t (1 : Fin 2) * 512 ≤ (i 1).val ∧ (i 1).val < win0_7.index t (1 : Fin 2) * 512 + 512; rw [e1]; omega

/-- The first kernel's output array, after its 50 points, is the first layer of the arrays it found. -/
theorem final0 (c : Dev nD) : (dat0 (F := Ideal) V c).arrAt 7 cfg0.N = L1 V c :=
  (dat0 (F := Ideal) V c).arrAt_eq_of_cover 7 (L1 V c) (fun t _ => flushed0_eq V c t) (cover0)

end Cert.Cheb.Kernel

end
-- ==== Proof.Blocks1.lean ====
/-
  From blocks to the array, second kernel.

  The second kernel walks the same 50 blocks of 1000 rows: at grid point `t` it is handed rows
  `1000·t … 1000·t + 999` of the first layer's output and of its propagated copy, the whole of each weight matrix
  and of the bias, and writes back the same rows of the result.  Entry `(p, q)` of the block written at `t` is the
  specification's linear row function of row `1000·t + p` of the two whole arrays, so the block is block `t` of
  the second layer of the arrays as the kernel finds them; the 50 blocks cover the result array.
  Everything is stated for ANY contents `V` of the buffers at the kernel's entry.
-/
import proofs.«136306_j4853313045127_1_alg».proof.Proof.Blocks0

set_option maxRecDepth 16384

noncomputable section

namespace Cert.Cheb.Kernel

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The second kernel's index maps over its 50 points: the row-blocked windows (both inputs and the output) sit at
    block `t` of the rows and block 0 of the columns; the weights and the bias at block 0 throughout. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Point `t` of the second kernel as one of the 50. -/
def pt1 (t : Fin cfg1.N) : Fin 50 := ⟨t.val, by have := t.isLt; have h : cfg1.N = 50 := N_1; omega⟩

theorem read1_0 (c : Dev nD) (t : Fin cfg1.N) (p : Fin 1000) (k : Fin 512) :
    iblk1 V c 0 t (ix2 p k) = V c main_v43 (ix2 (rowAt (pt1 t) p) k) := by
  obtain ⟨e0, e1, -⟩ := idx_facts1 t
  show V c main_v43 (((cfg1.win 0).blk t).view.emb (ix2 p k)) = V c main_v43 (ix2 (rowAt (pt1 t) p) k)
  refine congrArg _ (funext fun a => Fin.ext ?_)
  match a with
  | ⟨0, _⟩ => show win1_0.index t (0 : Fin 2) * 1000 + 1 * p.val = t.val * 1000 + p.val; rw [e0]; omega
  | ⟨1, _⟩ => show win1_0.index t (1 : Fin 2) * 512 + 1 * k.val = k.val; rw [e1]; omega

theorem read1_1 (c : Dev nD) (t : Fin cfg1.N) (p : Fin 1000) (k : Fin 512) :
    iblk1 V c 1 t (ix2 p k) = V c main_v56 (ix2 (rowAt (pt1 t) p) k) := by
  obtain ⟨-, -, e0, e1, -⟩ := idx_facts1 t
  show V c main_v56 (((cfg1.win 1).blk t).view.emb (ix2 p k)) = V c main_v56 (ix2 (rowAt (pt1 t) p) k)
  refine congrArg _ (funext fun a => Fin.ext ?_)
  match a with
  | ⟨0, _⟩ => show win1_1.index t (0 : Fin 2) * 1000 + 1 * p.val = t.val * 1000 + p.val; rw [e0]; omega
  | ⟨1, _⟩ => show win1_1.index t (1 : Fin 2) * 512 + 1 * k.val = k.val; rw [e1]; omega

theorem read1_2 (c : Dev nD) (t : Fin cfg1.N) : (iblk1 V c 2 t : S512x512.Idx → EReal) = V c main_arg6 := by
  obtain ⟨-, -, -, -, e0, e1, -⟩ := idx_facts1 t
  funext y
  show V c main_arg6 (((cfg1.win 2).blk t).view.emb y) = V c main_arg6 y
  refine congrArg _ (funext fun a => Fin.ext ?_)
  match a with
  | ⟨0, _⟩ => show win1_2.index t (0 : Fin 2) * 512 + 1 * (y 0).val = (y 0).val; rw [e0]; omega
  | ⟨1, _⟩ => show win1_2.index t (1 : Fin 2) * 512 + 1 * (y 1).val = (y 1).val; rw [e1]; omega

theorem read1_3 (c : Dev nD) (t : Fin cfg1.N) : (iblk1 V c 3 t : S512x512.Idx → EReal) = V c main_arg7 := by
  obtain ⟨-, -, -, -, -, -, e0, e1, -⟩ := idx_facts1 t
  funext y
  show V c main_arg7 (((cfg1.win 3).blk t).view.emb y) = V c main_arg7 y
  refine congrArg _ (funext fun a => Fin.ext ?_)
  match a with
  | ⟨0, _⟩ => show win1_3.index t (0 : Fin 2) * 512 + 1 * (y 0).val = (y 0).val; rw [e0]; omega
  | ⟨1, _⟩ => show win1_3.index t (1 : Fin 2) * 512 + 1 * (y 1).val = (y 1).val; rw [e1]; omega

theorem read1_4 (c : Dev nD) (t : Fin cfg1.N) : (iblk1 V c 4 t : S512.Idx → EReal) = V c main_arg8 := by
  obtain ⟨-, -, -, -, -, -, -, -, e0, -⟩ := idx_facts1 t
  funext y
  show V c main_arg8 (((cfg1.win 4).blk t).view.emb y) = V c main_arg8 y
  refine congrArg _ (funext fun a => Fin.ext ?_)
  match a with
  | ⟨0, _⟩ => show win1_4.index t (0 : Fin 1) * 512 + 1 * (y 0).val = (y 0).val; rw [e0]; omega

/-- Where entry `(p, q)` of the result block of point `t` sits in the result array. -/
theorem emb1_5 (t : Fin cfg1.N) (p : Fin 1000) (q : Fin 512) :
    ((cfg1.win 5).blk t).view.emb (ix2 p q) = ix2 (rowAt (pt1 t) p) q := by
  obtain ⟨-, -, -, -, -, -, -, -, -, e0, e1⟩ := idx_facts1 t
  refine funext fun a => Fin.ext ?_
  match a with
  | ⟨0, _⟩ => show win1_5.index t (0 : Fin 2) * 1000 + 1 * p.val = t.val * 1000 + p.val; rw [e0]; omega
  | ⟨1, _⟩ => show win1_5.index t (1 : Fin 2) * 512 + 1 * q.val = q.val; rw [e1]; omega

/-- The second layer of the arrays as the second kernel finds them. -/
abbrev L2 (c : Dev nD) : S50000x512.Idx → EReal :=
  Cert.Cheb.layer2 (V c main_v43) (V c main_v56) (V c main_arg6) (V c main_arg7) (V c main_arg8)

/-- What point `t` writes back is block `t` of the second layer. -/
theorem flushed1_eq (c : Dev nD) (t : Fin cfg1.N) :
    (dat1 (F := Ideal) V c).flushed 5 t = ((cfg1.win 5).blk t).view.read (Elt Ideal) (L2 V c) := by
  show (cfg1.win 5).cut (grid1.coords t) ((dat1 (F := Ideal) V c).after 5 t) = _
  rw [after1_5]
  unfold out1_5
  rw [View.canon_unit_zero hz2]
  simp only [View.ld_unit_zero (S := S1000x512) hz2, View.ld_unit_zero (S := S512x512) hz2, View.ld_unit_zero (S := S512) hz1]
  funext j
  obtain ⟨p, q, rfl⟩ : ∃ (p : Fin 1000) (q : Fin 512), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
      = L2 V c (((cfg1.win 5).blk t).view.emb (ix2 p q))
  refine (pay1_apply (iblk1 V c 0 t) (iblk1 V c 1 t) (iblk1 V c 2 t) (iblk1 V c 3 t) (iblk1 V c 4 t) p q).trans ?_
  rw [emb1_5 t p q, read1_2 V c t, read1_3 V c t, read1_4 V c t]
  unfold L2
  rw [Cert.Cheb.layer2_apply]
  simp only [read1_0 V c t, read1_1 V c t]

theorem mem_blk1_5 (t : Fin cfg1.N) (i : S50000x512.Idx) :
    i ∈ ((cfg1.win 5).blk t).view.set ↔ ∀ a : Fin 2, win1_5.index t a * S1000x512.size a ≤ (i a).val ∧ (i a).val < win1_5.index t a * S1000x512.size a + S1000x512.size a := by
  show i ∈ ((View.whole main_v57).slice (win1_5.rect t)).set ↔ _
  rw [View.set_slice_whole, Rect.mem_set_unit]
  exact Iff.rfl

/-- Every entry of the result array lies in the block of the point its row selects. -/
theorem cover1 (i : S50000x512.Idx) : ∃ t : Fin cfg1.N, (cfg1.win 5).flush t = true ∧ i ∈ ((cfg1.win 5).blk t).view.set := by
  have hi0 : (i 0).val < 50000 := (i 0).isLt
  have hi1 : (i 1).val < 512 := (i 1).isLt
  have hN : cfg1.N = 50 := N_1
  let t : Fin cfg1.N := ⟨(i 0).val / 1000, by omega⟩
  obtain ⟨-, -, -, -, -, -, -, -, -, e0, e1⟩ := idx_facts1 t
  refine ⟨t, flush1_5 t, ?_⟩
  rw [mem_blk1_5]
  intro a
  have ht : t.val = (i 0).val / 1000 := rfl
  match a with
  | ⟨0, _⟩ => show win1_5.index t (0 : Fin 2) * 1000 ≤ (i 0).val ∧ (i 0).val < win1_5.index t (0 : Fin 2) * 1000 + 1000; rw [e0]; omega
  | ⟨1, _⟩ => show win1_5.index t (1 : Fin 2) * 512 ≤ (i 1).val ∧ (i 1).val < win1_5.index t (1 : Fin 2) * 512 + 512; rw [e1]; omega

/-- The second kernel's result array, after its 50 points, is the second layer of the arrays it found. -/
theorem final1 (c : Dev nD) : (dat1 (F := Ideal) V c).arrAt 5 cfg1.N = L2 V c :=
  (dat1 (F := Ideal) V c).arrAt_eq_of_cover 5 (L2 V c) (fun t _ => flushed1_eq V c t) (cover1)

end Cert.Cheb.Kernel

end
-- ==== Proof.KernelRun.lean ====
/-
  The idealized kernel program's run, with its result named.

  The program is six stretches in a row: three stretches of host operations, the first kernel over its 50 grid
  points, one more stretch of host operations, the second kernel over its 50 points.  The contents of every buffer
  at each boundary are a fold through the program from the launch memory (`W0 … W6` of the generated frame module);
  at the end every buffer that is not scoped to a kernel holds what the last fold `W6` says.  The generated frame
  theorem reads only the argument arrays off that final state; here the same launch is read at the result buffer
  as well, so the result array after the run is named: it is `W6` at the result buffer.
-/
import proofs.«136306_j4853313045127_1_alg».proof.Proof.Gen.KernelIdeal.Frame

set_option maxRecDepth 16384

noncomputable section

namespace Cert.Cheb.Kernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    fold's contents and the argument arrays as launched. -/
theorem run_named : θ_run defs (onTc (τ := τ) (main (F := F))) ⟨m, fun _ => 0, ρ⟩ (fun r => ∀ c : Dev nD,
      r.2.mem ((c.tc : Thread nD τ).loc main_v57) = W6 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v57 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.Cheb.Kernel

end
-- ==== Proof.HostFns.lean ====
/-
  The graph propagation, as one function.

  Both programs propagate a node-feature matrix `v` along the edges in the same way: every edge gathers the row of
  `v` at its source node (an index below zero counted from the end), scales it by the edge's weight, and the scaled
  rows are summed into the row of the edge's destination node.  The two programs spell this with the same host
  operations in the same order, so it is named here once, as a function of the source and destination lists, the
  edge weights and `v`, and is never opened: both sides apply it to equal arguments.
-/
import proofs.«136306_j4853313045127_1_alg».proof.Proof.Gen.ReferenceIdeal

noncomputable section

namespace Cert.Cheb.Host

open Cert.ReferenceIdeal Cert.ReferenceIdeal.Gen Idealize.ShloMosaic

variable {F : FTy → Type} [FloatOps F]

/-- Gather the rows of `v` at the edges' sources, scale each by its edge's weight, and sum them into the rows of the
    edges' destinations, from a zero matrix. -/
def propagate (src dst : (⟨S160000, .i32⟩ : BufTy).Contents (Elt F)) (nrm : (⟨S160000, .f32⟩ : BufTy).Contents (Elt F))
    (v : (⟨S50000x512, .f32⟩ : BufTy).Contents (Elt F)) : (⟨S50000x512, .f32⟩ : BufTy).Contents (Elt F) :=
  Host.scatterAdd scatter_S50000x512_S160000x1_S160000x512_1_0_0_1
    (broadcastInDim S50000x512 ![] bcast_S_S50000x512 (constant S_ .f32 0x00000000#32))
    (broadcastInDim S160000x1 ![0] bcast_S160000_S160000x1_0 dst)
    (mulf
      (Host.gather gather_S50000x512_S160000x1_S160000x512_1_0_n_n_0_1_1512 v
        (broadcastInDim S160000x1 ![0] bcast_S160000_S160000x1_0
          (select (cmpi .slt src (broadcastInDim S160000 ![] bcast_S_S160000 (constantI S_ 32 0#32)))
            (addi src (broadcastInDim S160000 ![] bcast_S_S160000 (constantI S_ 32 50000#32))) src)))
      (broadcastInDim S160000x512 ![0, 1] bcast_S160000x1_S160000x512_0_1
        (broadcastInDim S160000x1 ![0] bcast_S160000_S160000x1_0 nrm)))

end Cert.Cheb.Host

end
-- ==== Proof.KernelHost.lean ====
/-
  The host stretches of the kernel program, read as values.

  Before the first kernel the program computes, on the host, the source and destination lists of the edges, the
  edge weights, and the input features propagated along the edges; between the two kernels it propagates the first
  kernel's output the same way.  Read back from any starting contents `W` of the buffers, the three stretches before
  the first kernel leave: the edge lists and weights at the functions of the edge list that the reference computes
  (the same operations, in the same order), the propagated input at the propagation function of them and the input,
  and every argument array as it was.  The stretch between the kernels leaves the propagated array at the propagation
  function of the lists, the weights and the first kernel's output as that stretch finds them, and touches neither
  the first kernel's output nor the arguments.
-/
import proofs.«136306_j4853313045127_1_alg».proof.Proof.Gen.KernelIdeal.Launch
import proofs.«136306_j4853313045127_1_alg».proof.Proof.ReadP
import proofs.«136306_j4853313045127_1_alg».proof.Proof.HostFns
import Idealize.ShloMosaic.Lib.StableHlo.Run

set_option maxRecDepth 16384

noncomputable section

namespace Cert.Cheb.Kernel

open Cert.KernelIdeal Cert.KernelIdeal.Gen Idealize.ShloMosaic Idealize.ShloMosaic.TcCoe Idealize.SL.Sem Idealize.ShloMosaic.StableHlo

variable (W : Valuation τ sig (Elt Ideal))

/-- The buffers after the three host stretches that precede the first kernel, from the contents `W`. -/
abbrev after3 : Valuation τ sig (Elt Ideal) :=
  StableHlo.after hostOps0_2 (StableHlo.after hostOps0_1 (StableHlo.after hostOps0 W))

/-- The edges' source list. -/
abbrev srcOf (e : (⟨Cert.ReferenceIdeal.S2x160000, .i32⟩ : BufTy).Contents (Elt Ideal)) := Cert.ReferenceIdeal.ReadP.val_main_v1 (F := Ideal) e
/-- The edges' destination list. -/
abbrev dstOf (e : (⟨Cert.ReferenceIdeal.S2x160000, .i32⟩ : BufTy).Contents (Elt Ideal)) := Cert.ReferenceIdeal.ReadP.val_main_v3 (F := Ideal) e
/-- The edges' weights. -/
abbrev nrmOf (e : (⟨Cert.ReferenceIdeal.S2x160000, .i32⟩ : BufTy).Contents (Elt Ideal)) := Cert.ReferenceIdeal.ReadP.val_main_v29 (F := Ideal) e

theorem src_at : after3 W (Proc.devRef .tc main_v1) = srcOf (W (Proc.devRef .tc main_arg9)) := by
  dsimp only [after3, hostOps0, hostOps0_1, hostOps0_2]
  after_results_simp
  rfl

theorem dst_at : after3 W (Proc.devRef .tc main_v3) = dstOf (W (Proc.devRef .tc main_arg9)) := by
  dsimp only [after3, hostOps0, hostOps0_1, hostOps0_2]
  after_results_simp
  rfl

set_option maxRecDepth 400000 in
theorem nrm_at : after3 W (Proc.devRef .tc main_v29) = nrmOf (W (Proc.devRef .tc main_arg9)) := by
  dsimp only [after3, hostOps0, hostOps0_1, hostOps0_2]
  after_results_simp
  rfl

/-- The two host stretches before the index arithmetic, from the contents `W`. -/
abbrev after2 : Valuation τ sig (Elt Ideal) := StableHlo.after hostOps0_1 (StableHlo.after hostOps0 W)

theorem src_at2 : after2 W (Proc.devRef .tc main_v1) = srcOf (W (Proc.devRef .tc main_arg9)) := by
  dsimp only [after2, hostOps0, hostOps0_1]
  after_results_simp
  rfl

theorem dst_at2 : after2 W (Proc.devRef .tc main_v3) = dstOf (W (Proc.devRef .tc main_arg9)) := by
  dsimp only [after2, hostOps0, hostOps0_1]
  after_results_simp
  rfl

theorem arg0_at2 : after2 W (Proc.devRef .tc main_arg0) = W (Proc.devRef .tc main_arg0) := by
  dsimp only [after2, hostOps0, hostOps0_1]
  after_results_simp

/-- The third stretch alone: the propagated input is the propagation function of the lists it finds, the edge
    weights it computes, and the input. -/
theorem tx1_step (n : (⟨Cert.ReferenceIdeal.S160000, .f32⟩ : BufTy).Contents (Elt Ideal))
    (hn : StableHlo.after hostOps0_2 W (Proc.devRef .tc main_v29) = n) :
    StableHlo.after hostOps0_2 W (Proc.devRef .tc main_v42)
      = Cert.Cheb.Host.propagate (W (Proc.devRef .tc main_v1)) (W (Proc.devRef .tc main_v3)) n (W (Proc.devRef .tc main_arg0)) := by
  subst hn
  dsimp only [hostOps0_2]
  after_results_simp
  rfl

/-- The input features propagated along the edges, as the first kernel finds them. -/
theorem tx1_at : after3 W (Proc.devRef .tc main_v42)
    = Cert.Cheb.Host.propagate (srcOf (W (Proc.devRef .tc main_arg9))) (dstOf (W (Proc.devRef .tc main_arg9)))
        (nrmOf (W (Proc.devRef .tc main_arg9))) (W (Proc.devRef .tc main_arg0)) := by
  have h := tx1_step (after2 W) (nrmOf (W (Proc.devRef .tc main_arg9))) (nrm_at W)
  rw [src_at2 W, dst_at2 W, arg0_at2 W] at h
  exact h

theorem arg0_at : after3 W (Proc.devRef .tc main_arg0) = W (Proc.devRef .tc main_arg0) := by
  dsimp only [after3, hostOps0, hostOps0_1, hostOps0_2]
  after_results_simp

theorem arg1_at : after3 W (Proc.devRef .tc main_arg1) = W (Proc.devRef .tc main_arg1) := by
  dsimp only [after3, hostOps0, hostOps0_1, hostOps0_2]
  after_results_simp

theorem arg2_at : after3 W (Proc.devRef .tc main_arg2) = W (Proc.devRef .tc main_arg2) := by
  dsimp only [after3, hostOps0, hostOps0_1, hostOps0_2]
  after_results_simp

theorem arg3_at : after3 W (Proc.devRef .tc main_arg3) = W (Proc.devRef .tc main_arg3) := by
  dsimp only [after3, hostOps0, hostOps0_1, hostOps0_2]
  after_results_simp

theorem arg4_at : after3 W (Proc.devRef .tc main_arg4) = W (Proc.devRef .tc main_arg4) := by
  dsimp only [after3, hostOps0, hostOps0_1, hostOps0_2]
  after_results_simp

theorem arg5_at : after3 W (Proc.devRef .tc main_arg5) = W (Proc.devRef .tc main_arg5) := by
  dsimp only [after3, hostOps0, hostOps0_1, hostOps0_2]
  after_results_simp

theorem arg6_at : after3 W (Proc.devRef .tc main_arg6) = W (Proc.devRef .tc main_arg6) := by
  dsimp only [after3, hostOps0, hostOps0_1, hostOps0_2]
  after_results_simp

theorem arg7_at : after3 W (Proc.devRef .tc main_arg7) = W (Proc.devRef .tc main_arg7) := by
  dsimp only [after3, hostOps0, hostOps0_1, hostOps0_2]
  after_results_simp

theorem arg8_at : after3 W (Proc.devRef .tc main_arg8) = W (Proc.devRef .tc main_arg8) := by
  dsimp only [after3, hostOps0, hostOps0_1, hostOps0_2]
  after_results_simp

theorem arg9_at : after3 W (Proc.devRef .tc main_arg9) = W (Proc.devRef .tc main_arg9) := by
  dsimp only [after3, hostOps0, hostOps0_1, hostOps0_2]
  after_results_simp

/-- The first kernel's output propagated along the edges, as the second kernel finds it. -/
theorem tx2_at : StableHlo.after hostOps1 W (Proc.devRef .tc main_v56)
    = Cert.Cheb.Host.propagate (W (Proc.devRef .tc main_v1)) (W (Proc.devRef .tc main_v3)) (W (Proc.devRef .tc main_v29))
        (W (Proc.devRef .tc main_v43)) := by
  dsimp only [hostOps1]
  after_results_simp
  rfl

theorem h_at : StableHlo.after hostOps1 W (Proc.devRef .tc main_v43) = W (Proc.devRef .tc main_v43) := by
  dsimp only [hostOps1]
  after_results_simp

theorem arg6_at1 : StableHlo.after hostOps1 W (Proc.devRef .tc main_arg6) = W (Proc.devRef .tc main_arg6) := by
  dsimp only [hostOps1]
  after_results_simp

theorem arg7_at1 : StableHlo.after hostOps1 W (Proc.devRef .tc main_arg7) = W (Proc.devRef .tc main_arg7) := by
  dsimp only [hostOps1]
  after_results_simp

theorem arg8_at1 : StableHlo.after hostOps1 W (Proc.devRef .tc main_arg8) = W (Proc.devRef .tc main_arg8) := by
  dsimp only [hostOps1]
  after_results_simp

end Cert.Cheb.Kernel

end
-- ==== Proof.KernelValue.lean ====
/-
  What the idealized kernel program computes.

  Put together: the first kernel is entered with the argument arrays as launched and the input features propagated
  along the edges, so its output array is the first layer of those — call it the hidden features.  The stretch of
  host operations between the kernels leaves the hidden features where they are and propagates them; the second
  kernel is entered with the hidden features, their propagated copy, and the second layer's weights and bias as
  launched, so the result array is the second layer of those.  The edge lists and weights are the same functions of
  the edge list throughout, since no kernel and no later operation writes them.
-/
import proofs.«136306_j4853313045127_1_alg».proof.Proof.Blocks1
import proofs.«136306_j4853313045127_1_alg».proof.Proof.KernelRun
import proofs.«136306_j4853313045127_1_alg».proof.Proof.KernelHost

set_option maxRecDepth 16384

noncomputable section

namespace Cert.Cheb.Kernel

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The input features propagated along the edges, from the launch memory. -/
def tx1 (c : Dev nD) : S50000x512.Idx → EReal :=
  Cert.Cheb.Host.propagate (srcOf (m ((c.tc : Thread nD τ).loc main_arg9))) (dstOf (m ((c.tc : Thread nD τ).loc main_arg9)))
    (nrmOf (m ((c.tc : Thread nD τ).loc main_arg9))) (m ((c.tc : Thread nD τ).loc main_arg0))

/-- The hidden features: the first layer of the launch memory's arrays. -/
def hidden (c : Dev nD) : S50000x512.Idx → EReal :=
  Cert.Cheb.layer1 (m ((c.tc : Thread nD τ).loc main_arg0)) (tx1 m c) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5))

/-- The hidden features propagated along the edges. -/
def tx2 (c : Dev nD) : S50000x512.Idx → EReal :=
  Cert.Cheb.Host.propagate (srcOf (m ((c.tc : Thread nD τ).loc main_arg9))) (dstOf (m ((c.tc : Thread nD τ).loc main_arg9)))
    (nrmOf (m ((c.tc : Thread nD τ).loc main_arg9))) (hidden m c)

/-- The result: the second layer of the hidden features. -/
def result (c : Dev nD) : S50000x512.Idx → EReal :=
  Cert.Cheb.layer2 (hidden m c) (tx2 m c) (m ((c.tc : Thread nD τ).loc main_arg6)) (m ((c.tc : Thread nD τ).loc main_arg7))
    (m ((c.tc : Thread nD τ).loc main_arg8))

/-! ## The first kernel's entry contents -/

theorem v3_arg0 (c : Dev nD) : V3 m ρ c main_arg0 = m ((c.tc : Thread nD τ).loc main_arg0) := arg0_at (W0 m ρ c)
theorem v3_arg1 (c : Dev nD) : V3 m ρ c main_arg1 = m ((c.tc : Thread nD τ).loc main_arg1) := arg1_at (W0 m ρ c)
theorem v3_arg2 (c : Dev nD) : V3 m ρ c main_arg2 = m ((c.tc : Thread nD τ).loc main_arg2) := arg2_at (W0 m ρ c)
theorem v3_arg3 (c : Dev nD) : V3 m ρ c main_arg3 = m ((c.tc : Thread nD τ).loc main_arg3) := arg3_at (W0 m ρ c)
theorem v3_arg4 (c : Dev nD) : V3 m ρ c main_arg4 = m ((c.tc : Thread nD τ).loc main_arg4) := arg4_at (W0 m ρ c)
theorem v3_arg5 (c : Dev nD) : V3 m ρ c main_arg5 = m ((c.tc : Thread nD τ).loc main_arg5) := arg5_at (W0 m ρ c)
theorem v3_tx1 (c : Dev nD) : V3 m ρ c main_v42 = tx1 m c := tx1_at (W0 m ρ c)

/-- The first kernel's output array is the hidden features. -/
theorem w4_hidden (c : Dev nD) : W4 m ρ c (Proc.devRef .tc main_v43) = hidden m c := by
  refine (W4_arr m ρ c 7).trans ((final0 (V3 m ρ) c).trans ?_)
  unfold L1 hidden
  rw [v3_arg0, v3_arg1, v3_arg2, v3_arg3, v3_arg4, v3_arg5, v3_tx1]

/-! ## The second kernel's entry contents -/

theorem w4_src (c : Dev nD) : W4 m ρ c (Proc.devRef .tc main_v1) = srcOf (m ((c.tc : Thread nD τ).loc main_arg9)) :=
  (W4_of_ne m ρ c main_v1 (by decide)).trans (src_at (W0 m ρ c))
theorem w4_dst (c : Dev nD) : W4 m ρ c (Proc.devRef .tc main_v3) = dstOf (m ((c.tc : Thread nD τ).loc main_arg9)) :=
  (W4_of_ne m ρ c main_v3 (by decide)).trans (dst_at (W0 m ρ c))
theorem w4_nrm (c : Dev nD) : W4 m ρ c (Proc.devRef .tc main_v29) = nrmOf (m ((c.tc : Thread nD τ).loc main_arg9)) :=
  (W4_of_ne m ρ c main_v29 (by decide)).trans (nrm_at (W0 m ρ c))

theorem v5_hidden (c : Dev nD) : V5 m ρ c main_v43 = hidden m c := (h_at (W4 m ρ c)).trans (w4_hidden m ρ c)
theorem v5_tx2 (c : Dev nD) : V5 m ρ c main_v56 = tx2 m c := by
  refine (tx2_at (W4 m ρ c)).trans ?_
  rw [w4_src, w4_dst, w4_nrm, w4_hidden]
  rfl
theorem v5_arg6 (c : Dev nD) : V5 m ρ c main_arg6 = m ((c.tc : Thread nD τ).loc main_arg6) :=
  (arg6_at1 (W4 m ρ c)).trans ((W4_of_ne m ρ c main_arg6 (by decide)).trans (arg6_at (W0 m ρ c)))
theorem v5_arg7 (c : Dev nD) : V5 m ρ c main_arg7 = m ((c.tc : Thread nD τ).loc main_arg7) :=
  (arg7_at1 (W4 m ρ c)).trans ((W4_of_ne m ρ c main_arg7 (by decide)).trans (arg7_at (W0 m ρ c)))
theorem v5_arg8 (c : Dev nD) : V5 m ρ c main_arg8 = m ((c.tc : Thread nD τ).loc main_arg8) :=
  (arg8_at1 (W4 m ρ c)).trans ((W4_of_ne m ρ c main_arg8 (by decide)).trans (arg8_at (W0 m ρ c)))

/-- The result array after the run is the second layer of the hidden features. -/
theorem w6_result (c : Dev nD) : W6 m ρ c (Proc.devRef .tc main_v57) = result m c := by
  refine (W6_arr m ρ c 5).trans ((final1 (V5 m ρ) c).trans ?_)
  unfold L2 result
  rw [v5_hidden, v5_tx2, v5_arg6, v5_arg7, v5_arg8]

/-- The run of the idealized kernel program, read: the result buffer ends at `result`, the arguments unchanged. -/
theorem run : θ_run defs (onTc (τ := τ) (main (F := Ideal))) ⟨m, fun _ => 0, ρ⟩ (fun r => ∀ c : Dev nD,
      r.2.mem ((c.tc : Thread nD τ).loc main_v57) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (w6_result m ρ c), (h c).2⟩) (run_named m ρ)

end Cert.Cheb.Kernel

end
-- ==== Proof.RefLayers.lean ====
/-
  The reference program's two layers, read entry by entry.

  The reference treats all 50000 rows at once.  Its first layer forms the two products and the bias, normalises every
  row (mean, mean of squared deviations, reciprocal square root, scale and shift) and applies the leaky rectifier;
  its second layer is the two products and the bias.  Reading every stage at an index `ix2 r c` shows that entry
  `(r, c)` depends on row `r` of the node features, row `r` of the propagated features, and the weights, and that it
  is the specification's `layer1Row` (first layer) or `linRow` (second layer) of those rows.  The propagated features
  themselves (a gather / scatter chain over the edge list) stay opaque: they enter only as a matrix read at `ix2 r k`.

  The row sums start from the float word of zero, which is the extended real `0` and drops out by `zero_add`.
-/
import proofs.«136306_j4853313045127_1_alg».proof.Proof.ReadP
import proofs.«136306_j4853313045127_1_alg».proof.Proof.Spec

noncomputable section

namespace Cert.Cheb.Ref

open Cert.ReferenceIdeal Cert.ReferenceIdeal.ReadP Idealize.ShloMosaic Idealize.ShloMosaic.ValueIdx
open scoped BigOperators

/-- The node-feature matrices (50000 rows of 512 features). -/
abbrev XT : Type := (⟨S50000x512, .f32⟩ : BufTy).Contents (Elt Ideal)
/-- The weight matrices. -/
abbrev WT : Type := (⟨S512x512, .f32⟩ : BufTy).Contents (Elt Ideal)
/-- The bias, scale and shift vectors. -/
abbrev VT : Type := (⟨S512, .f32⟩ : BufTy).Contents (Elt Ideal)
/-- The edge list. -/
abbrev ET : Type := (⟨S2x160000, .i32⟩ : BufTy).Contents (Elt Ideal)

/-! ## Index equations

Each composed index function of the generated stages, at an index built from literal coordinates, is again an
index built from literal coordinates.  A product's left factor is read along row `r`, its right factor down
column `c`; a row sum runs along row `r`; a per-row column is read at `(r, 0)`; a per-feature vector at `c`. -/

theorem lidx30 (r : Fin 50000) (c k : Fin 512) : lidx_main_v30 (ix2 r c) k = ix2 r k :=
  funext fun a => Fin.ext (by match a with | ⟨0, _⟩ => rfl | ⟨1, _⟩ => rfl)
theorem ridx30 (r : Fin 50000) (c k : Fin 512) : ridx_main_v30 (ix2 r c) k = ix2 k c :=
  funext fun a => Fin.ext (by match a with | ⟨0, _⟩ => rfl | ⟨1, _⟩ => rfl)
theorem lidx44 (r : Fin 50000) (c k : Fin 512) : lidx_main_v44 (ix2 r c) k = ix2 r k :=
  funext fun a => Fin.ext (by match a with | ⟨0, _⟩ => rfl | ⟨1, _⟩ => rfl)
theorem ridx44 (r : Fin 50000) (c k : Fin 512) : ridx_main_v44 (ix2 r c) k = ix2 k c :=
  funext fun a => Fin.ext (by match a with | ⟨0, _⟩ => rfl | ⟨1, _⟩ => rfl)
theorem lidx78 (r : Fin 50000) (c k : Fin 512) : lidx_main_v78 (ix2 r c) k = ix2 r k :=
  funext fun a => Fin.ext (by match a with | ⟨0, _⟩ => rfl | ⟨1, _⟩ => rfl)
theorem ridx78 (r : Fin 50000) (c k : Fin 512) : ridx_main_v78 (ix2 r c) k = ix2 k c :=
  funext fun a => Fin.ext (by match a with | ⟨0, _⟩ => rfl | ⟨1, _⟩ => rfl)
theorem lidx92 (r : Fin 50000) (c k : Fin 512) : lidx_main_v92 (ix2 r c) k = ix2 r k :=
  funext fun a => Fin.ext (by match a with | ⟨0, _⟩ => rfl | ⟨1, _⟩ => rfl)
theorem ridx92 (r : Fin 50000) (c k : Fin 512) : ridx_main_v92 (ix2 r c) k = ix2 k c :=
  funext fun a => Fin.ext (by match a with | ⟨0, _⟩ => rfl | ⟨1, _⟩ => rfl)

/-- A per-feature vector broadcast to `[1, 512]` and then to all rows is read at the column. -/
theorem idx46_47 (r : Fin 50000) (c : Fin 512) : idx_main_v46 (idx_main_v47 (ix2 r c)) = ix1 c :=
  funext fun a => Fin.ext (by match a with | ⟨0, _⟩ => rfl)
theorem idx67_68 (r : Fin 50000) (c : Fin 512) : idx_main_v67 (idx_main_v68 (ix2 r c)) = ix1 c :=
  funext fun a => Fin.ext (by match a with | ⟨0, _⟩ => rfl)
theorem idx70_71 (r : Fin 50000) (c : Fin 512) : idx_main_v70 (idx_main_v71 (ix2 r c)) = ix1 c :=
  funext fun a => Fin.ext (by match a with | ⟨0, _⟩ => rfl)
theorem idx94_95 (r : Fin 50000) (c : Fin 512) : idx_main_v94 (idx_main_v95 (ix2 r c)) = ix1 c :=
  funext fun a => Fin.ext (by match a with | ⟨0, _⟩ => rfl)

/-- A row sum kept as a column: entry `(r, 0)` of the column is the sum along row `r`. -/
theorem idx49_50 (r : Fin 50000) (z : Fin 1) (k : Fin 512) : idx_main_v49 (idx_main_v50 (ix2 r z)) k = ix2 r k :=
  funext fun a => Fin.ext (by match a with | ⟨0, _⟩ => rfl | ⟨1, _⟩ => rfl)
theorem idx56_57 (r : Fin 50000) (z : Fin 1) (k : Fin 512) : idx_main_v56 (idx_main_v57 (ix2 r z)) k = ix2 r k :=
  funext fun a => Fin.ext (by match a with | ⟨0, _⟩ => rfl | ⟨1, _⟩ => rfl)

/-- A per-row column broadcast over the features is read at `(r, 0)`. -/
theorem idx53 (r : Fin 50000) (c : Fin 512) : idx_main_v53 (ix2 r c) = ix2 r (0 : Fin 1) :=
  funext fun a => Fin.ext (by match a with | ⟨0, _⟩ => rfl | ⟨1, _⟩ => rfl)
theorem idx60 (r : Fin 50000) (c : Fin 512) : idx_main_v60 (ix2 r c) = ix2 r (0 : Fin 1) :=
  funext fun a => Fin.ext (by match a with | ⟨0, _⟩ => rfl | ⟨1, _⟩ => rfl)
theorem idx65 (r : Fin 50000) (c : Fin 512) : idx_main_v65 (ix2 r c) = ix2 r (0 : Fin 1) :=
  funext fun a => Fin.ext (by match a with | ⟨0, _⟩ => rfl | ⟨1, _⟩ => rfl)

/-! ## The first layer -/

/-- Row `r` of the first layer's linear part `x · W0 + t · W1 + b`, where `t` is the matrix of propagated features. -/
def lin1 (x0 : XT) (x1 x2 : WT) (x3 : VT) (x9 : ET) (r : Fin 50000) : Fin 512 → EReal :=
  linRow (fun k => x0 (ix2 r k)) (fun k => val_main_v43 (F := Ideal) x0 x9 (ix2 r k)) x1 x2 x3

/-- The two products and the bias, at entry `(r, c)`. -/
theorem v48_at (x0 : XT) (x1 x2 : WT) (x3 : VT) (x9 : ET) (r : Fin 50000) (c : Fin 512) :
    val_main_v48 (F := Ideal) x0 x1 x2 x3 x9 (ix2 r c) = lin1 x0 x1 x2 x3 x9 r c := by
  rw [val_main_v48_apply, val_main_v45_apply, val_main_v30_apply, val_main_v44_apply, val_main_v47_apply,
    val_main_v46_apply]
  simp only [lidx30, ridx30, lidx44, ridx44, idx46_47]
  rfl

/-- The column of row means, at `(r, 0)`: the sum along row `r` divided by the float word of 512. -/
theorem v52_at (x0 : XT) (x1 x2 : WT) (x3 : VT) (x9 : ET) (r : Fin 50000) :
    val_main_v52 (F := Ideal) x0 x1 x2 x3 x9 (ix2 r (0 : Fin 1)) = rowMean (lin1 x0 x1 x2 x3 x9 r) := by
  rw [val_main_v52_apply, val_main_v50_apply, val_main_v49_apply, val_main_v51_apply, val_main_cst_11_apply,
    val_main_cst_10_apply]
  simp only [idx49_50, v48_at, Ideal.hostDivf_def, Ideal.ofBits_def, Ideal.ofBits_zero_f32, zero_add]
  rfl

/-- The deviation from the row mean (the copy that is squared). -/
theorem v54_at (x0 : XT) (x1 x2 : WT) (x3 : VT) (x9 : ET) (r : Fin 50000) (c : Fin 512) :
    val_main_v54 (F := Ideal) x0 x1 x2 x3 x9 (ix2 r c) = lin1 x0 x1 x2 x3 x9 r c - rowMean (lin1 x0 x1 x2 x3 x9 r) := by
  rw [val_main_v54_apply, val_main_v53_apply, idx53, v48_at, v52_at]
  rfl

/-- The deviation from the row mean (the copy that is normalised). -/
theorem v61_at (x0 : XT) (x1 x2 : WT) (x3 : VT) (x9 : ET) (r : Fin 50000) (c : Fin 512) :
    val_main_v61 (F := Ideal) x0 x1 x2 x3 x9 (ix2 r c) = lin1 x0 x1 x2 x3 x9 r c - rowMean (lin1 x0 x1 x2 x3 x9 r) := by
  rw [val_main_v61_apply, val_main_v60_apply, idx60, v48_at, v52_at]
  rfl

/-- The column of row variances, at `(r, 0)`: the mean of the squared deviations. -/
theorem v59_at (x0 : XT) (x1 x2 : WT) (x3 : VT) (x9 : ET) (r : Fin 50000) :
    val_main_v59 (F := Ideal) x0 x1 x2 x3 x9 (ix2 r (0 : Fin 1))
      = rowMean (fun c' => (lin1 x0 x1 x2 x3 x9 r c' - rowMean (lin1 x0 x1 x2 x3 x9 r)) * (lin1 x0 x1 x2 x3 x9 r c' - rowMean (lin1 x0 x1 x2 x3 x9 r))) := by
  rw [val_main_v59_apply, val_main_v57_apply, val_main_v56_apply, val_main_v58_apply, val_main_cst_13_apply,
    val_main_cst_12_apply]
  simp only [idx56_57, val_main_v55_apply, v54_at, Ideal.hostDivf_def, Ideal.mulf_def, Ideal.ofBits_def,
    Ideal.ofBits_zero_f32, zero_add]
  rfl

/-- The reciprocal square root of the variance plus ε, at `(r, 0)`. -/
theorem v64_at (x0 : XT) (x1 x2 : WT) (x3 : VT) (x9 : ET) (r : Fin 50000) :
    val_main_v64 (F := Ideal) x0 x1 x2 x3 x9 (ix2 r (0 : Fin 1))
      = Ideal.rsqrt (rowMean (fun c' => (lin1 x0 x1 x2 x3 x9 r c' - rowMean (lin1 x0 x1 x2 x3 x9 r)) * (lin1 x0 x1 x2 x3 x9 r c' - rowMean (lin1 x0 x1 x2 x3 x9 r)))
          + Ideal.ofBits .f32 0x3727C5AC#32) := by
  rw [val_main_v64_apply, val_main_v63_apply, v59_at, val_main_v62_apply, val_main_cst_14_apply]
  rfl

/-- The normalised, scaled and shifted row, at entry `(r, c)`. -/
theorem v72_at (x0 : XT) (x1 x2 : WT) (x3 x4 x5 : VT) (x9 : ET) (r : Fin 50000) (c : Fin 512) :
    val_main_v72 (F := Ideal) x0 x1 x2 x3 x4 x5 x9 (ix2 r c) = normRow (lin1 x0 x1 x2 x3 x9 r) x4 x5 c := by
  rw [val_main_v72_apply, val_main_v69_apply, val_main_v66_apply, v61_at, val_main_v65_apply, idx65, v64_at,
    val_main_v68_apply, val_main_v67_apply, idx67_68, val_main_v71_apply, val_main_v70_apply, idx70_71]
  rfl

/-- The leaky rectifier of the normalised row, at entry `(r, c)`. -/
theorem v77_at (x0 : XT) (x1 x2 : WT) (x3 x4 x5 : VT) (x9 : ET) (r : Fin 50000) (c : Fin 512) :
    val_main_v77 (F := Ideal) x0 x1 x2 x3 x4 x5 x9 (ix2 r c) = leaky (normRow (lin1 x0 x1 x2 x3 x9 r) x4 x5 c) := by
  rw [val_main_v77_apply, val_main_v74_apply, val_main_v76_apply, v72_at, val_main_v73_apply, val_main_v75_apply,
    val_main_cst_15_apply, val_main_cst_16_apply]
  rfl

/-- The reference's first layer is the specification's, on the propagated features the reference computes. -/
theorem ref_layer1 (x0 : (⟨S50000x512, .f32⟩ : BufTy).Contents (Elt Ideal)) (x1 x2 : (⟨S512x512, .f32⟩ : BufTy).Contents (Elt Ideal)) (x3 x4 x5 : (⟨S512, .f32⟩ : BufTy).Contents (Elt Ideal)) (x9 : (⟨S2x160000, .i32⟩ : BufTy).Contents (Elt Ideal)) :
    val_main_v77 (F := Ideal) x0 x1 x2 x3 x4 x5 x9
      = Cert.Cheb.layer1 x0 (val_main_v43 (F := Ideal) x0 x9) x1 x2 x3 x4 x5 := by
  funext j
  obtain ⟨r, c, rfl⟩ : ∃ (r : Fin 50000) (c : Fin 512), j = ix2 r c := ⟨j 0, j 1, eq_ix2 j⟩
  rw [v77_at]
  rfl

/-! ## The second layer -/

/-- The reference's second layer is the specification's: the two products and the bias, on the first layer's output
    and on its propagated copy. -/
theorem ref_layer2 (x0 : (⟨S50000x512, .f32⟩ : BufTy).Contents (Elt Ideal)) (x1 x2 : (⟨S512x512, .f32⟩ : BufTy).Contents (Elt Ideal)) (x3 x4 x5 : (⟨S512, .f32⟩ : BufTy).Contents (Elt Ideal)) (x6 x7 : (⟨S512x512, .f32⟩ : BufTy).Contents (Elt Ideal)) (x8 : (⟨S512, .f32⟩ : BufTy).Contents (Elt Ideal)) (x9 : (⟨S2x160000, .i32⟩ : BufTy).Contents (Elt Ideal)) :
    val_main_v96 (F := Ideal) x0 x1 x2 x3 x4 x5 x6 x7 x8 x9
      = Cert.Cheb.layer2 (val_main_v77 (F := Ideal) x0 x1 x2 x3 x4 x5 x9) (val_main_v91 (F := Ideal) x0 x1 x2 x3 x4 x5 x9) x6 x7 x8 := by
  funext j
  obtain ⟨r, c, rfl⟩ : ∃ (r : Fin 50000) (c : Fin 512), j = ix2 r c := ⟨j 0, j 1, eq_ix2 j⟩
  rw [val_main_v96_apply, val_main_v93_apply, val_main_v78_apply, val_main_v92_apply, val_main_v95_apply,
    val_main_v94_apply]
  simp only [lidx78, ridx78, lidx92, ridx92, idx94_95]
  rfl

end Cert.Cheb.Ref

end
-- ==== Proof.RefHost.lean ====
/-
  The reference's two propagations are the one propagation function.

  The reference propagates the input features to form the first layer's second operand, and the first layer's
  output to form the second layer's: both times the same chain of host operations over the same source list,
  destination list and edge weights, which are functions of the edge list alone.
-/
import proofs.«136306_j4853313045127_1_alg».proof.Proof.ReadP
import proofs.«136306_j4853313045127_1_alg».proof.Proof.HostFns

noncomputable section

namespace Cert.Cheb.Ref

open Cert.ReferenceIdeal Cert.ReferenceIdeal.ReadP Idealize.ShloMosaic

variable {F : FTy → Type} [FloatOps F]

/-- The propagated input features. -/
theorem ref_prop1 (x0 : (⟨S50000x512, .f32⟩ : BufTy).Contents (Elt F)) (x9 : (⟨S2x160000, .i32⟩ : BufTy).Contents (Elt F)) :
    val_main_v43 (F := F) x0 x9
      = Cert.Cheb.Host.propagate (val_main_v1 (F := F) x9) (val_main_v3 (F := F) x9) (val_main_v29 (F := F) x9) x0 := rfl

/-- The propagated output of the first layer. -/
theorem ref_prop2 (x0 : (⟨S50000x512, .f32⟩ : BufTy).Contents (Elt F)) (x1 x2 : (⟨S512x512, .f32⟩ : BufTy).Contents (Elt F))
    (x3 x4 x5 : (⟨S512, .f32⟩ : BufTy).Contents (Elt F)) (x9 : (⟨S2x160000, .i32⟩ : BufTy).Contents (Elt F)) :
    val_main_v91 (F := F) x0 x1 x2 x3 x4 x5 x9
      = Cert.Cheb.Host.propagate (val_main_v1 (F := F) x9) (val_main_v3 (F := F) x9) (val_main_v29 (F := F) x9)
          (val_main_v77 (F := F) x0 x1 x2 x3 x4 x5 x9) := rfl

end Cert.Cheb.Ref

end
-- ==== Proof.RefValue.lean ====
/-
  What the idealized reference computes, in the specification's words.

  The reference's result is the second layer of the hidden features and their propagated copy, the hidden features
  being the first layer of the input and its propagated copy; both propagations are the one propagation function
  over the source list, destination list and edge weights that the edge list determines.
-/
import proofs.«136306_j4853313045127_1_alg».proof.Proof.RefLayers
import proofs.«136306_j4853313045127_1_alg».proof.Proof.RefHost

noncomputable section

namespace Cert.Cheb.Ref

open Cert.ReferenceIdeal Cert.ReferenceIdeal.ReadP Idealize.ShloMosaic

theorem ref_result (x0 : (⟨S50000x512, .f32⟩ : BufTy).Contents (Elt Ideal)) (x1 x2 : (⟨S512x512, .f32⟩ : BufTy).Contents (Elt Ideal))
    (x3 x4 x5 : (⟨S512, .f32⟩ : BufTy).Contents (Elt Ideal)) (x6 x7 : (⟨S512x512, .f32⟩ : BufTy).Contents (Elt Ideal))
    (x8 : (⟨S512, .f32⟩ : BufTy).Contents (Elt Ideal)) (x9 : (⟨S2x160000, .i32⟩ : BufTy).Contents (Elt Ideal)) :
    val_main_v96 (F := Ideal) x0 x1 x2 x3 x4 x5 x6 x7 x8 x9
      = Cert.Cheb.layer2
          (Cert.Cheb.layer1 x0
            (Cert.Cheb.Host.propagate (val_main_v1 (F := Ideal) x9) (val_main_v3 (F := Ideal) x9) (val_main_v29 (F := Ideal) x9) x0)
            x1 x2 x3 x4 x5)
          (Cert.Cheb.Host.propagate (val_main_v1 (F := Ideal) x9) (val_main_v3 (F := Ideal) x9) (val_main_v29 (F := Ideal) x9)
            (Cert.Cheb.layer1 x0
              (Cert.Cheb.Host.propagate (val_main_v1 (F := Ideal) x9) (val_main_v3 (F := Ideal) x9) (val_main_v29 (F := Ideal) x9) x0)
              x1 x2 x3 x4 x5))
          x6 x7 x8 := by
  rw [ref_layer2, ref_prop2, ref_layer1, ref_prop1]

end Cert.Cheb.Ref

end
-- ==== Proof.lean ====
/-
  Two graph-convolution layers, computed block by block and computed whole, are the same function.

  The kernel program gathers and scatters along the graph's edges on the host, then runs a first kernel over 50 blocks
  of 1000 rows (two 512-wide matrix products, a bias, a row normalisation and a leaky rectifier), propagates that
  output along the edges on the host again, and runs a second kernel over the same blocks (two products and a bias).
  The reference does all of it on the host, 50000 rows at once.  Read at exact extended-real values both end with
  the same array: each layer's entry depends on one row of its two operands, so a block of rows of the whole-array
  function is the function of the block; a matrix product into a zero accumulator, a lane sum and the host's sums are
  the same finite sums; the roundings to the narrow float format are the identity; and the edge propagation is one
  shared function of equal arguments.  No law that could fail at an infinity is used, so the precondition is never
  opened.

  The three frame claims: each kernel program's frame is the generated frame theorem; the reference has no kernel,
  and its frame is its run with the result dropped.  The kernel's idealization rewrote nothing, so `preserves` is
  trivial.
-/
import proofs.«136306_j4853313045127_1_alg».proof.Defs
import proofs.«136306_j4853313045127_1_alg».proof.Proof.Gen.Kernel
import proofs.«136306_j4853313045127_1_alg».proof.Proof.Gen.Kernel.Skeleton
import proofs.«136306_j4853313045127_1_alg».proof.Proof.Gen.Kernel.Launch
import proofs.«136306_j4853313045127_1_alg».proof.Proof.Gen.Kernel.Points
import proofs.«136306_j4853313045127_1_alg».proof.Proof.Gen.Kernel.Frame
import proofs.«136306_j4853313045127_1_alg».proof.Proof.Gen.KernelIdeal
import proofs.«136306_j4853313045127_1_alg».proof.Proof.Gen.KernelIdeal.Skeleton
import proofs.«136306_j4853313045127_1_alg».proof.Proof.Gen.KernelIdeal.Launch
import proofs.«136306_j4853313045127_1_alg».proof.Proof.Gen.KernelIdeal.Points
import proofs.«136306_j4853313045127_1_alg».proof.Proof.Gen.KernelIdeal.Frame
import proofs.«136306_j4853313045127_1_alg».proof.Proof.Gen.ReferenceIdeal
import proofs.«136306_j4853313045127_1_alg».proof.Proof.Gen.Pre_finite_inputs
import proofs.«136306_j4853313045127_1_alg».proof.Proof.KernelValue
import proofs.«136306_j4853313045127_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs end with the second layer of the hidden features: the kernel program by its two
    kernels' blocks (the kernel's value), the reference by its host operations read entry by entry. -/
theorem algebraic : Cert.algebraic_KernelIdeal_ReferenceIdeal := by
  intro m ρ m' ρ' _ hagree
  refine ⟨fun c => Cert.Cheb.Kernel.result m c, Cert.Cheb.Kernel.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  rw [Cert.ReferenceIdeal.ReadP.val_main_v96_eq, h0, h1, h2, h3, h4, h5, h6, h7, h8, h9]
  exact Cert.Cheb.Ref.ref_result _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
